-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S40x128 .f32) (main_arg6 : FVec F S40 .f32) (main_arg7 : FVec F S40x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S64x128 : Shape := ⟨2, ![64, 128]⟩
abbrev S128x40 : Shape := ⟨2, ![128, 40]⟩
abbrev S1x128 : Shape := ⟨2, ![1, 128]⟩
abbrev S100000x128 : Shape := ⟨2, ![100000, 128]⟩
abbrev S100000x40 : Shape := ⟨2, ![100000, 40]⟩
abbrev S5000x64 : Shape := ⟨2, ![5000, 64]⟩
abbrev S5000x1 : Shape := ⟨2, ![5000, 1]⟩
abbrev S5000x128 : Shape := ⟨2, ![5000, 128]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩

abbrev nBuf : Space → Nat
  | .hbm => 60
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S64x128, .f32⟩
  | .hbm, ⟨39, _⟩ => ⟨S64x128, .f32⟩
  | .hbm, ⟨40, _⟩ => ⟨S128x40, .f32⟩
  | .hbm, ⟨41, _⟩ => ⟨S1x128, .f32⟩
  | .hbm, ⟨42, _⟩ => ⟨S100000x128, .f32⟩
  | .hbm, ⟨43, _⟩ => ⟨S100000x40, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x40, .f32⟩
  | .hbm, ⟨53, _⟩ => ⟨S_, .f32⟩
  | .hbm, ⟨54, _⟩ => ⟨S100000x40, .f32⟩
  | .hbm, ⟨55, _⟩ => ⟨S1600000x1, .i32⟩
  | .hbm, ⟨56, _⟩ => ⟨S100000x40, .f32⟩
  | .hbm, ⟨57, _⟩ => ⟨S128x40, .f32⟩
  | .hbm, ⟨58, _⟩ => ⟨S1x40, .f32⟩
  | .hbm, ⟨59, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S128x40, .f32⟩
  | .local _ .vmem, ⟨10, _⟩ => ⟨S5000x128, .f32⟩
  | .local _ .vmem, ⟨11, _⟩ => ⟨S5000x128, .f32⟩
  | .local _ .vmem, ⟨12, _⟩ => ⟨S5000x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S128x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  transposes_S128x64_S64x128_1_0 : S128x64.Transposes [1, 0] S64x128
  transposes_S40x128_S128x40_1_0 : S40x128.Transposes [1, 0] S128x40
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x128_S5000x128_0_0 : ∀ a, (![0, 0] : Fin 2 → Nat) a + S5000x128.size a ≤ S5000x128.size a
  h_S5000x128 : 0 < S5000x128.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  shapeCasts_S5000x128_S5000x128 : S5000x128.ShapeCasts S5000x128
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x40.size a ≤ S128x40.size a
  hwx0_6 : ∀ i : grid0.Coords, EltTy.bits .f32 = 32 ∨ (Rect.block (s := S128x40) S128x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x40.size a ≤ S100000x40.size a
  hwx0_8 : ∀ i : grid0.Coords, EltTy.bits .f32 = 32 ∨ (Rect.block (s := S100000x40) S5000x40.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S128x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S5000x40.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S1600000x128 : Shape := ⟨2, ![1600000, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S64x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x40, .f32⟩
  | .hbm, ⟨74, _⟩ => ⟨S100000x40, .f32⟩
  | .hbm, ⟨75, _⟩ => ⟨S1x40, .f32⟩
  | .hbm, ⟨76, _⟩ => ⟨S100000x40, .f32⟩
  | .hbm, ⟨77, _⟩ => ⟨S100000x40, .f32⟩
  | .hbm, ⟨78, _⟩ => ⟨S128x40, .f32⟩
  | .hbm, ⟨79, _⟩ => ⟨S100000x40, .f32⟩
  | .hbm, ⟨80, _⟩ => ⟨S100000x40, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x40, .f32⟩
  | .hbm, ⟨95, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibSageRows.lean ====
/-
  A two-layer mean-aggregating graph network, node by node, over the extended reals.

  The neighbour means are computed before a layer runs, so a layer sees, for every node, the mean row `a` of
  its in-neighbours' features and the node's own feature row `h`. It sends the pair to

      conv a h wl wr b  =  j ↦ (∑ k, a k · wl[k, j]) + (∑ k, h k · wr[k, j]) + b j

  and rectifies the result entry by entry. The last step of the network is a dense layer on the rectified
  row. This file names the row function `conv`, the whole-array functions built from it (`hiddenArr`,
  `denseArr`), and reads, ROW BY ROW, the two spellings of a rectified layer that occur: the device's (two
  products into zero accumulators added, then the bias row broadcast down the rows) and the host's (product,
  bias, product). They differ in the order of the three summands only; addition of extended reals is
  commutative and associative, so the two are the same row function for all inputs, finite or not.
-/
import proofs.«133953_j20117626814731_2_alg».proof.Proof.LibRowLayers

noncomputable section

namespace Cert.SageRows

open Idealize.ShloMosaic Idealize.ShloMosaic.ValueIdx Cert.RowLayers

/-- One node's layer before the rectifier: the neighbour mean `a` through `wl`, the node's own row `h`
    through `wr`, plus the bias `b`. -/
def conv {K J : ℕ} (a h : Fin K → EReal) (wl wr : (⟨2, ![K, J]⟩ : Shape).Idx → EReal) (b : Fin J → EReal) : Fin J → EReal :=
  fun j => (∑ k : Fin K, a k * wl (ix2 k j)) + (∑ k : Fin K, h k * wr (ix2 k j)) + b j

/-- A rectified layer on whole arrays: row `p` of the result is the rectified `conv` of rows `p` of the
    neighbour means and of the features. -/
def hiddenArr {N K J : ℕ} (z : EReal) (agg h : (⟨2, ![N, K]⟩ : Shape).Idx → EReal)
    (wl wr : (⟨2, ![K, J]⟩ : Shape).Idx → EReal) (b : Fin J → EReal) : (⟨2, ![N, J]⟩ : Shape).Idx → EReal :=
  fun i => relu z (conv (rowOf agg (i 0)) (rowOf h (i 0)) wl wr b) (i 1)

/-- A dense layer on whole arrays: row `p` of the result is `dense` of row `p`. -/
def denseArr {N K J : ℕ} (h : (⟨2, ![N, K]⟩ : Shape).Idx → EReal) (w : (⟨2, ![K, J]⟩ : Shape).Idx → EReal)
    (b : Fin J → EReal) : (⟨2, ![N, J]⟩ : Shape).Idx → EReal :=
  fun i => dense (rowOf h (i 0)) w b (i 1)

theorem rowOf_hiddenArr {N K J : ℕ} (z : EReal) (agg h : (⟨2, ![N, K]⟩ : Shape).Idx → EReal)
    (wl wr : (⟨2, ![K, J]⟩ : Shape).Idx → EReal) (b : Fin J → EReal) (p : Fin N) :
    rowOf (hiddenArr z agg h wl wr b) p = relu z (conv (rowOf agg p) (rowOf h p) wl wr b) := rfl

theorem rowOf_denseArr {N K J : ℕ} (h : (⟨2, ![N, K]⟩ : Shape).Idx → EReal) (w : (⟨2, ![K, J]⟩ : Shape).Idx → EReal)
    (b : Fin J → EReal) (p : Fin N) : rowOf (denseArr h w b) p = dense (rowOf h p) w b := rfl

/-- An array is determined by its rows. -/
theorem ext_rows {α : Type} {a b : ℕ} {v w : (⟨2, ![a, b]⟩ : Shape).Idx → α} (h : ∀ p, rowOf v p = rowOf w p) : v = w :=
  funext fun i => (apply_eq_rowOf v i).trans ((congrFun (h (i 0)) (i 1)).trans (apply_eq_rowOf w i).symm)

/-- The dimension numbers "contract the left operand's axis 1 with the right operand's axis 0, no batch axes" say
    rows times columns: each field by unfolding the index maps at the literal lists. -/
macro "plain_product " d:term : tactic =>
  `(tactic| exact ⟨rfl, rfl,
      fun i q => by
        unfold DotDims.lhsIdx
        rw [dif_neg (show ¬(0 : Fin 2) ∈ ($d).lhsBatch by decide), dif_pos (show (0 : Fin 2) ∈ ($d).lhsNonContracting by decide)]
        rfl,
      fun i q => ($d).lhsIdx_val_of_single rfl i q,
      fun i q => ($d).rhsIdx_val_of_single rfl i q,
      fun i q => by
        unfold DotDims.rhsIdx
        rw [dif_neg (show ¬(1 : Fin 2) ∈ ($d).rhsBatch by decide), dif_pos (show (1 : Fin 2) ∈ ($d).rhsNonContracting by decide)]
        rfl⟩)

section Spellings
variable {a K J : ℕ} {d : DotDims ⟨2, ![a, K]⟩ ⟨2, ![K, J]⟩ ⟨2, ![a, J]⟩} {φ₁ φ₂ φ₃ φ₄ : FTy}

/-- The device's spelling of a rectified layer, on a row: the two products added, then the bias row broadcast
    down the rows, then the maximum with a splat scalar. -/
theorem rowOf_hidden_device (H : RowsTimesCols d) (prec : Option ContractPrecision)
    (agg : FVec Ideal ⟨2, ![a, K]⟩ φ₁) (h : FVec Ideal ⟨2, ![a, K]⟩ φ₂)
    (wl : FVec Ideal ⟨2, ![K, J]⟩ φ₃) (wr : FVec Ideal ⟨2, ![K, J]⟩ φ₄) (bias : FVec Ideal ⟨2, ![1, J]⟩ .f32) (z : Ideal .f32)
    (hB : (⟨2, ![1, J]⟩ : Shape).Broadcasts ⟨2, ![a, J]⟩) (p : Fin a) :
    rowOf (maximumf (addf (addf
        (matmul d prec agg wl (constant (F := Ideal) ⟨2, ![a, J]⟩ .f32 0x00000000#32))
        (matmul d prec h wr (constant (F := Ideal) ⟨2, ![a, J]⟩ .f32 0x00000000#32)))
        (broadcastTo ⟨2, ![a, J]⟩ bias hB)) (broadcast ⟨2, ![a, J]⟩ z)) p
      = relu z (conv (rowOf agg p) (rowOf h p) wl wr (rowOf bias 0)) := by
  rw [rowOf_maximumf_splat, rowOf_addf, rowOf_addf, rowOf_matmul_zero H, rowOf_matmul_zero H, rowOf_broadcastTo]
  rfl

/-- The host's spelling, on a row: product, bias vector (given a unit axis and broadcast), product, then the
    maximum with a broadcast constant. The same row function: only the order of the last two summands differs. -/
theorem rowOf_hidden_host {s0 : Shape} (H : RowsTimesCols d) (prec : Option ContractPrecision)
    (agg : FVec Ideal ⟨2, ![a, K]⟩ φ₁) (h : FVec Ideal ⟨2, ![a, K]⟩ φ₂)
    (wl : FVec Ideal ⟨2, ![K, J]⟩ φ₃) (wr : FVec Ideal ⟨2, ![K, J]⟩ φ₄) (b : FVec Ideal ⟨1, ![J]⟩ .f32) (w : BitVec 32)
    (dims0 : Fin s0.rank → Fin 2) (h0 : s0.BroadcastsInDim ⟨2, ![a, J]⟩ dims0)
    (g1 : (⟨1, ![J]⟩ : Shape).BroadcastsInDim ⟨2, ![1, J]⟩ ![1]) (g2 : (⟨2, ![1, J]⟩ : Shape).BroadcastsInDim ⟨2, ![a, J]⟩ ![0, 1]) (p : Fin a) :
    rowOf (maximumf (addf (addf
        (Host.dotGeneral (F := Ideal) d prec agg wl)
        (broadcastInDim ⟨2, ![a, J]⟩ ![0, 1] g2 (broadcastInDim ⟨2, ![1, J]⟩ ![1] g1 b)))
        (Host.dotGeneral (F := Ideal) d prec h wr))
        (broadcastInDim ⟨2, ![a, J]⟩ dims0 h0 (constant (F := Ideal) s0 .f32 w))) p
      = relu (Ideal.ofBits .f32 w) (conv (rowOf agg p) (rowOf h p) wl wr (fun j => b (ix1 j))) := by
  rw [rowOf_maximumf_const, rowOf_addf, rowOf_addf, rowOf_dotGeneral H, rowOf_dotGeneral H, rowOf_broadcastInDim_vec]
  refine congrArg (relu (Ideal.ofBits .f32 w)) (funext fun j => ?_)
  unfold conv
  exact add_right_comm _ _ _

end Spellings

end Cert.SageRows

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.LibRowStat.lean ====
/-
  A per-row statistic of an [R, C] array kept as a column [R, 1] and stretched back to [R, C], read at an index, at the
  ideal instance: the row maximum taken from -∞ is the supremum of the row, the row sum from the zero word is the sum of
  the row, for any extents with R ≠ 1. (The keepdims form a softmax takes its two statistics in.) Imports the
  library and the two modules on a reduction by maximum and on a vector kept as a column.
-/
import Idealize.ShloMosaic.PureOps.Ideal.Laws
import Idealize.ShloMosaic.Lib.ValueIdx
import Idealize.ShloMosaic.Lib.Pipeline.Value
import proofs.«133953_j20117626814731_2_alg».proof.Proof.LibReduceExtremum
import proofs.«133953_j20117626814731_2_alg».proof.Proof.LibColumnCast

noncomputable section

namespace Cert.LibRowStat

open Idealize.ShloMosaic Idealize.ShloMosaic.ValueIdx

section RowStat
variable {R C : Nat}

/-- The index a reduction over the second axis of an [R, C] array visits at row r, coordinate k. -/
theorem lift_row (h : (⟨2, ![R, C]⟩ : Shape).Reduces [1] ⟨1, ![R]⟩) (r : Fin R) (k : Fin C) :
    h.lift (ix1 r) (k : Fin ((⟨2, ![R, C]⟩ : Shape).size 1)) = ix2 r k := by
  funext a
  apply Fin.ext
  match a with
  | ⟨0, _⟩ => rfl
  | ⟨1, _⟩ => rfl

/-- A column [R, 1] stretched to [R, C] reads, at (r, c), the column's entry r. -/
theorem stretch_col {α : Type} (hC : R ≠ 1) (v : (⟨2, ![R, 1]⟩ : Shape).Idx → α) (h : (⟨2, ![R, 1]⟩ : Shape).Broadcasts ⟨2, ![R, C]⟩)
    (r : Fin R) (c : Fin C) : broadcastTo ⟨2, ![R, C]⟩ v h (ix2 r c) = v (ix2 r 0) :=
  broadcastTo_apply v h _ _ fun a => by
    match a with
    | ⟨0, _⟩ => exact (if_neg hC).symm
    | ⟨1, _⟩ => exact (if_pos rfl).symm

/-- The row maximum (from -∞), kept as a column and stretched, is at (r, c) the supremum of row r. -/
theorem rowMax_apply (hR : R ≠ 1) (S : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ : FKind.Formats .f32) (hacc : (0xFF800000#32 : BitVec 32) = 0xFF800000#32) (r : Fin R) (c : Fin C) :
    broadcastTo ⟨2, ![R, C]⟩ (shapeCast ⟨2, ![R, 1]⟩ (multiReduction .maximumf [1] ⟨1, ![R]⟩ S 0xFF800000#32 hr hφ hacc) hc) hb (ix2 r c)
      = ⨆ k : Fin C, S (ix2 r k) := by
  rw [stretch_col hR, Cert.ColumnCast.shapeCast_a_a1_apply, ReduceExtremum.multiReduction_max_single_f32_printed]
  show (⨆ k : Fin C, S (hr.lift (ix1 r) k)) = _
  exact iSup_congr fun k => congrArg S (lift_row hr r k)

/-- The row sum, kept as a column and stretched, is at (r, c) the sum of row r. -/
theorem rowSum_apply (hR : R ≠ 1) (S : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ : FKind.Formats .f32) (hacc : (0x00000000#32 : BitVec 32) = 0x00000000#32) (r : Fin R) (c : Fin C) :
    broadcastTo ⟨2, ![R, C]⟩ (shapeCast ⟨2, ![R, 1]⟩ (multiReduction .add [1] ⟨1, ![R]⟩ S 0x00000000#32 hr hφ hacc) hc) hb (ix2 r c)
      = ∑ k : Fin C, S (ix2 r k) := by
  rw [stretch_col hR, Cert.ColumnCast.shapeCast_a_a1_apply]
  refine (Ideal.multiReduction_add_single S _ hr hφ hacc (ix1 r)).trans ?_
  show (∑ k : Fin C, S (hr.lift (ix1 r) k)) = _
  exact Finset.sum_congr rfl fun k _ => congrArg S (lift_row hr r k)

end RowStat

end Cert.LibRowStat

end
-- ==== Proof.LibSageLayer.lean ====
/-
  One layer of a mean-aggregating graph convolution, node by node, over the extended reals.

  A node's new feature row is computed from three things: the SUM `a` of its in-neighbours' feature rows, the
  number `d` of those neighbours, and its own row `h`. The sum is turned into a mean by dividing by `max d 1`
  (a node without in-neighbours keeps a zero sum), the mean goes through one weight matrix, the node's own row
  through another, and a bias row is added:

      combine a d h wl wr b  =  j ↦ (∑ k, (a k / max d 1) · wl[k, j]) + (∑ k, h k · wr[k, j]) + b j.

  This file names that row function and the whole-array function `layer` built from it, and reads, ROW BY ROW,
  the two spellings of it that occur: the device's (two products into zero accumulators added, then the bias
  row broadcast down the rows, the divisor a column broadcast along the lanes) and the host's (product, bias,
  product, the divisor a vector given a unit axis and broadcast). The two differ in the order of the three
  summands only, and addition of extended reals is commutative and associative, so no finiteness is needed.
  Every statement is for an arbitrary number of rows: one calculus serves a block of rows and the whole array.
-/
import proofs.«133953_j20117626814731_2_alg».proof.Proof.LibRowLayers
import proofs.«133953_j20117626814731_2_alg».proof.Proof.LibColumnCast
import proofs.«133953_j20117626814731_2_alg».proof.Proof.LibColumnBroadcast

noncomputable section

namespace Cert.SageLayer

open Idealize.ShloMosaic Idealize.ShloMosaic.ValueIdx Cert.RowLayers

/-- One node's combine: the mean of the neighbour sum `a` (divided by `max d u`, `u` the unit) through `wl`, the
    node's own row `h` through `wr`, plus the bias `b`. -/
def combine {K J : ℕ} (u : EReal) (a : Fin K → EReal) (d : EReal) (h : Fin K → EReal)
    (wl wr : (⟨2, ![K, J]⟩ : Shape).Idx → EReal) (b : Fin J → EReal) : Fin J → EReal :=
  fun j => (∑ k : Fin K, Ideal.div (a k) (max d u) * wl (ix2 k j)) + (∑ k : Fin K, h k * wr (ix2 k j)) + b j

/-- The layer on whole arrays: row `p` of the result is `combine` of row `p` of the neighbour sums, the count at
    `p` and row `p` of the features. -/
def layer {N K J : ℕ} (u : EReal) (agg : (⟨2, ![N, K]⟩ : Shape).Idx → EReal) (deg : Fin N → EReal)
    (h : (⟨2, ![N, K]⟩ : Shape).Idx → EReal) (wl wr : (⟨2, ![K, J]⟩ : Shape).Idx → EReal) (b : Fin J → EReal) :
    (⟨2, ![N, J]⟩ : Shape).Idx → EReal :=
  fun i => combine u (rowOf agg (i 0)) (deg (i 0)) (rowOf h (i 0)) wl wr b (i 1)

theorem layer_ix2 {N K J : ℕ} (u : EReal) (agg : (⟨2, ![N, K]⟩ : Shape).Idx → EReal) (deg : Fin N → EReal)
    (h : (⟨2, ![N, K]⟩ : Shape).Idx → EReal) (wl wr : (⟨2, ![K, J]⟩ : Shape).Idx → EReal) (b : Fin J → EReal)
    (p : Fin N) (j : Fin J) :
    layer u agg deg h wl wr b (ix2 p j) = combine u (rowOf agg p) (deg p) (rowOf h p) wl wr b j := rfl

section Spellings
variable {a K J : ℕ} {d : DotDims ⟨2, ![a, K]⟩ ⟨2, ![K, J]⟩ ⟨2, ![a, J]⟩} {φ : FTy}

/-- The device's spelling, on a row: the neighbour sums divided by the count column (its maximum with the unit,
    broadcast along the lanes), times `wl`; plus the features times `wr`; plus the bias row broadcast down. -/
theorem rowOf_combine_device (H : RowsTimesCols d) (prec : Option ContractPrecision)
    (agg : FVec Ideal ⟨2, ![a, K]⟩ .f32) (deg : FVec Ideal ⟨2, ![a, 1]⟩ .f32) (h : FVec Ideal ⟨2, ![a, K]⟩ φ)
    (wl wr : FVec Ideal ⟨2, ![K, J]⟩ .f32) (bias : FVec Ideal ⟨2, ![1, J]⟩ .f32) (u : Ideal .f32)
    (hD : (⟨2, ![a, 1]⟩ : Shape).Broadcasts ⟨2, ![a, K]⟩) (hB : (⟨2, ![1, J]⟩ : Shape).Broadcasts ⟨2, ![a, J]⟩) (p : Fin a) :
    rowOf (addf (addf
        (matmul d prec (divf agg (broadcastTo ⟨2, ![a, K]⟩ (maximumf deg (broadcast ⟨2, ![a, 1]⟩ u)) hD)) wl
          (constant (F := Ideal) ⟨2, ![a, J]⟩ .f32 0x00000000#32))
        (matmul d prec h wr (constant (F := Ideal) ⟨2, ![a, J]⟩ .f32 0x00000000#32)))
        (broadcastTo ⟨2, ![a, J]⟩ bias hB)) p
      = combine u (rowOf agg p) (deg (ix2 p (0 : Fin 1))) (rowOf h p) wl wr (rowOf bias 0) := by
  rw [rowOf_addf, rowOf_addf, rowOf_matmul_zero H, rowOf_matmul_zero H, rowOf_broadcastTo]
  funext j
  unfold combine
  refine congrArg (· + rowOf bias 0 j) (congrArg (· + ∑ k : Fin K, rowOf h p k * wr (ix2 k j)) ?_)
  refine Finset.sum_congr rfl fun k _ => congrArg (· * wl (ix2 k j)) ?_
  show Ideal.div (agg (ix2 p k)) (broadcastTo ⟨2, ![a, K]⟩ (maximumf deg (broadcast ⟨2, ![a, 1]⟩ u)) hD (ix2 p k)) = _
  rw [Cert.ColumnBroadcast.broadcastTo_a1_ab_apply]
  rfl

/-- A vector kept as a column and broadcast along the lanes (the host's two steps), on a row: every entry of row
    `p` is the vector's entry `p`. -/
theorem rowOf_broadcastInDim_col {α : Type} (x : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, K]⟩ ![0, 1]) (p : Fin a) :
    rowOf (broadcastInDim ⟨2, ![a, K]⟩ ![0, 1] h2 (broadcastInDim ⟨2, ![a, 1]⟩ ![0] h1 x)) p = fun _ => x (ix1 p) := by
  funext c
  show broadcastInDim ⟨2, ![a, K]⟩ ![0, 1] h2 (broadcastInDim ⟨2, ![a, 1]⟩ ![0] h1 x) (ix2 p c) = x (ix1 p)
  rw [broadcastInDim_apply ![0, 1] h2 _ (ix2 p c) (ix2 p (0 : Fin 1)) (fun ax => by
        match ax with
        | ⟨0, _⟩ => show p.val = if a = 1 then 0 else p.val; split <;> [(have := p.isLt; omega); rfl]
        | ⟨1, _⟩ => show (0 : ℕ) = if (1 : ℕ) = 1 then 0 else c.val; rw [if_pos rfl]),
      broadcastInDim_apply ![0] h1 x (ix2 p (0 : Fin 1)) (ix1 p) (fun ax => by
        match ax with
        | ⟨0, _⟩ => show p.val = if a = 1 then 0 else p.val; split <;> [(have := p.isLt; omega); rfl])]

/-- The host's spelling, on a row: the neighbour sums divided by the count vector (its maximum with the unit,
    kept as a column and broadcast), times `wl`; plus the bias; plus the features times `wr`. The same row
    function: only the order of the last two summands differs. -/
theorem rowOf_combine_host {s0 : Shape} (H : RowsTimesCols d) (prec : Option ContractPrecision)
    (agg : FVec Ideal ⟨2, ![a, K]⟩ .f32) (deg : FVec Ideal ⟨1, ![a]⟩ .f32) (h : FVec Ideal ⟨2, ![a, K]⟩ φ)
    (wl wr : FVec Ideal ⟨2, ![K, J]⟩ .f32) (b : FVec Ideal ⟨1, ![J]⟩ .f32) (w : BitVec 32)
    (dims0 : Fin s0.rank → Fin 1) (h0 : s0.BroadcastsInDim ⟨1, ![a]⟩ dims0)
    (h1 : (⟨1, ![a]⟩ : Shape).BroadcastsInDim ⟨2, ![a, 1]⟩ ![0]) (h2 : (⟨2, ![a, 1]⟩ : Shape).BroadcastsInDim ⟨2, ![a, K]⟩ ![0, 1])
    (g1 : (⟨1, ![J]⟩ : Shape).BroadcastsInDim ⟨2, ![1, J]⟩ ![1]) (g2 : (⟨2, ![1, J]⟩ : Shape).BroadcastsInDim ⟨2, ![a, J]⟩ ![0, 1]) (p : Fin a) :
    rowOf (addf (addf
        (Host.dotGeneral (F := Ideal) d prec
          (Host.divf agg (broadcastInDim ⟨2, ![a, K]⟩ ![0, 1] h2 (broadcastInDim ⟨2, ![a, 1]⟩ ![0] h1
            (maximumf deg (broadcastInDim ⟨1, ![a]⟩ dims0 h0 (constant (F := Ideal) s0 .f32 w)))))) wl)
        (broadcastInDim ⟨2, ![a, J]⟩ ![0, 1] g2 (broadcastInDim ⟨2, ![1, J]⟩ ![1] g1 b)))
        (Host.dotGeneral (F := Ideal) d prec h wr)) p
      = combine (Ideal.ofBits .f32 w) (rowOf agg p) (deg (ix1 p)) (rowOf h p) wl wr (fun j => b (ix1 j)) := by
  rw [rowOf_addf, rowOf_addf, rowOf_dotGeneral H, rowOf_dotGeneral H, rowOf_broadcastInDim_vec]
  funext j
  unfold combine
  rw [add_right_comm]
  refine congrArg (· + b (ix1 j)) (congrArg (· + ∑ k : Fin K, rowOf h p k * wr (ix2 k j)) ?_)
  refine Finset.sum_congr rfl fun k _ => congrArg (· * wl (ix2 k j)) ?_
  show Ideal.div (agg (ix2 p k)) (rowOf (broadcastInDim ⟨2, ![a, K]⟩ ![0, 1] h2 (broadcastInDim ⟨2, ![a, 1]⟩ ![0] h1
      (maximumf deg (broadcastInDim ⟨1, ![a]⟩ dims0 h0 (constant (F := Ideal) s0 .f32 w))))) p k) = _
  rw [rowOf_broadcastInDim_col]
  rfl

end Spellings

end Cert.SageLayer

end
-- ==== Proof.LibLogSoftmaxRow.lean ====
/-
  The logarithm of a softmax along the rows of an [R, C] array, read at an entry, at the ideal instance.

  For a row `y` the function is   lsmRow y j = (y j − M) − log (∑ k, exp (y k − M)),   M = the supremum of the row.
  Two spellings of it occur and both are read here at an index given by coordinates, for any extents with R ≠ 1:
  * the device's: the row maximum (a lane reduction from −∞) kept as a column and stretched over the lanes, the
    difference, its exponential, the row sum (a lane reduction from the zero word) kept as a column, its logarithm, the
    column stretched again, the second difference;
  * the host's: a reduce by maximum from −∞ joined by one more maximum with −∞, the result given a unit axis and
    broadcast, the difference, the host's exponential, a reduce by addition from the zero word (which contributes a
    leading `0 +`), a unit axis, the host's logarithm, the broadcast, the second difference.
  Nothing is assumed finite: both are the same expression of the row on all extended reals.
-/
import Idealize.ShloMosaic.PureOps.Ideal
import Idealize.ShloMosaic.PureOps.Ideal.Laws
import Idealize.ShloMosaic.Lib.ValueIdx
import Idealize.ShloMosaic.Lib.Pipeline.Value
import proofs.«133953_j20117626814731_2_alg».proof.Proof.LibReduceExtremum
import proofs.«133953_j20117626814731_2_alg».proof.Proof.LibRowStat
import proofs.«133953_j20117626814731_2_alg».proof.Proof.LibColumnCast
import proofs.«133953_j20117626814731_2_alg».proof.Proof.LibRowLayers
import proofs.«133953_j20117626814731_2_alg».proof.Proof.LibSageLayer

noncomputable section

open scoped BigOperators

namespace Cert.LogSoftmaxRow

open Idealize.ShloMosaic Idealize.ShloMosaic.ValueIdx Cert.RowLayers

/-- `j ↦ (y j − M) − log (∑ k, exp (y k − M))`, `M` the supremum of the row. -/
def lsmRow {J : ℕ} (y : Fin J → EReal) : Fin J → EReal :=
  fun j => (y j - ⨆ k : Fin J, y k) - Ideal.log (∑ k : Fin J, Ideal.exp (y k - ⨆ k' : Fin J, y k'))

section
variable {R C : ℕ}

/-- The tail shared by the two spellings once the stretched row maximum `BM` is known at row `p`: the device's. -/
theorem device_tail (hR : R ≠ 1) (y BM : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ : FKind.Formats .f32) (hacc : (0x00000000#32 : BitVec 32) = 0x00000000#32) (p : Fin R) (j : Fin C)
    (hM : ∀ c : Fin C, BM (ix2 p c) = ⨆ k : Fin C, y (ix2 p k)) :
    subf (subf y BM) (broadcastTo ⟨2, ![R, C]⟩ (log (shapeCast ⟨2, ![R, 1]⟩
        (multiReduction .add [1] ⟨1, ![R]⟩ (exp (subf y BM)) 0x00000000#32 hr hφ hacc) hc)) hb) (ix2 p j)
      = lsmRow (rowOf y p) j := by
  show (y (ix2 p j) - BM (ix2 p j)) - broadcastTo ⟨2, ![R, C]⟩ (log (shapeCast ⟨2, ![R, 1]⟩
        (multiReduction .add [1] ⟨1, ![R]⟩ (exp (subf y BM)) 0x00000000#32 hr hφ hacc) hc)) hb (ix2 p j) = _
  rw [hM j, Cert.LibRowStat.stretch_col hR _ hb p j]
  show _ - Ideal.log (shapeCast ⟨2, ![R, 1]⟩
        (multiReduction .add [1] ⟨1, ![R]⟩ (exp (subf y BM)) 0x00000000#32 hr hφ hacc) hc (ix2 p 0)) = _
  rw [Cert.ColumnCast.shapeCast_a_a1_apply, Ideal.multiReduction_add_single _ _ hr hφ hacc (ix1 p)]
  unfold lsmRow
  refine congrArg (fun s => (y (ix2 p j) - ⨆ k : Fin C, y (ix2 p k)) - Ideal.log s) (Finset.sum_congr rfl fun k _ => ?_)
  rw [Cert.LibRowStat.lift_row hr p k]
  show Ideal.exp (y (ix2 p k) - BM (ix2 p k)) = _
  rw [hM k]
  rfl

/-- THE DEVICE'S SPELLING at `(p, j)`. -/
theorem device_apply (hR : R ≠ 1) (y : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ hφ' : FKind.Formats .f32) (hacc : (0xFF800000#32 : BitVec 32) = 0xFF800000#32)
    (hacc' : (0x00000000#32 : BitVec 32) = 0x00000000#32) (p : Fin R) (j : Fin C) :
    subf (subf y (broadcastTo ⟨2, ![R, C]⟩ (shapeCast ⟨2, ![R, 1]⟩ (multiReduction .maximumf [1] ⟨1, ![R]⟩ y 0xFF800000#32 hr hφ hacc) hc) hb))
        (broadcastTo ⟨2, ![R, C]⟩ (log (shapeCast ⟨2, ![R, 1]⟩
          (multiReduction .add [1] ⟨1, ![R]⟩
            (exp (subf y (broadcastTo ⟨2, ![R, C]⟩ (shapeCast ⟨2, ![R, 1]⟩ (multiReduction .maximumf [1] ⟨1, ![R]⟩ y 0xFF800000#32 hr hφ hacc) hc) hb)))
            0x00000000#32 hr hφ' hacc') hc)) hb) (ix2 p j)
      = lsmRow (rowOf y p) j :=
  device_tail hR y _ hr hc hb hφ' hacc' p j fun c => Cert.LibRowStat.rowMax_apply hR y hr hc hb hφ hacc p c

/-- THE HOST'S SPELLING at `(p, j)`. -/
theorem host_apply {s0 : Shape} (y : FVec Ideal ⟨2, ![R, C]⟩ .f32)
    (hrt : (⟨2, ![R, C]⟩ : Shape).ReducesTo [1] ⟨1, ![R]⟩) (hr : (⟨2, ![R, C]⟩ : Shape).Reduces [1] ⟨1, ![R]⟩)
    (hu : 0 < s0.numel) (dims0 : Fin s0.rank → Fin 1) (h0 : s0.BroadcastsInDim ⟨1, ![R]⟩ dims0)
    (h1 : (⟨1, ![R]⟩ : Shape).BroadcastsInDim ⟨2, ![R, 1]⟩ ![0]) (h2 : (⟨2, ![R, 1]⟩ : Shape).BroadcastsInDim ⟨2, ![R, C]⟩ ![0, 1])
    (p : Fin R) (j : Fin C) :
    subf (subf y (broadcastInDim ⟨2, ![R, C]⟩ ![0, 1] h2 (broadcastInDim ⟨2, ![R, 1]⟩ ![0] h1
          (maximumf (broadcastInDim ⟨1, ![R]⟩ dims0 h0 (constant (F := Ideal) s0 .f32 0xFF800000#32))
            (Host.reduce FloatOps.maximumf y (constant (F := Ideal) s0 .f32 0xFF800000#32) hrt hu)))))
        (broadcastInDim ⟨2, ![R, C]⟩ ![0, 1] h2 (Host.log (broadcastInDim ⟨2, ![R, 1]⟩ ![0] h1
          (Host.reduceAdd (Host.exp (subf y (broadcastInDim ⟨2, ![R, C]⟩ ![0, 1] h2 (broadcastInDim ⟨2, ![R, 1]⟩ ![0] h1
              (maximumf (broadcastInDim ⟨1, ![R]⟩ dims0 h0 (constant (F := Ideal) s0 .f32 0xFF800000#32))
                (Host.reduce FloatOps.maximumf y (constant (F := Ideal) s0 .f32 0xFF800000#32) hrt hu))))))
            (constant (F := Ideal) s0 .f32 0x00000000#32) hrt hu)))) (ix2 p j)
      = lsmRow (rowOf y p) j := by
  -- the guarded row maximum, as a vector over the rows
  have hMV : (maximumf (broadcastInDim ⟨1, ![R]⟩ dims0 h0 (constant (F := Ideal) s0 .f32 0xFF800000#32))
      (Host.reduce FloatOps.maximumf y (constant (F := Ideal) s0 .f32 0xFF800000#32) hrt hu)) (ix1 p) = ⨆ k : Fin C, y (ix2 p k) := by
    show Max.max (Ideal.ofBits .f32 0xFF800000#32)
      (Host.reduce FloatOps.maximumf y (constant (F := Ideal) s0 .f32 0xFF800000#32) hrt hu (ix1 p)) = _
    rw [ReduceExtremum.ofBits_negInf_f32, ReduceExtremum.hostReduce_max_single_negInf y hrt hr hu (ix1 p), max_eq_right bot_le]
    exact iSup_congr fun k => congrArg y (Cert.LibRowStat.lift_row hr p k)
  generalize (maximumf (broadcastInDim ⟨1, ![R]⟩ dims0 h0 (constant (F := Ideal) s0 .f32 0xFF800000#32))
      (Host.reduce FloatOps.maximumf y (constant (F := Ideal) s0 .f32 0xFF800000#32) hrt hu)) = MV at hMV ⊢
  have hBM : ∀ c : Fin C, broadcastInDim ⟨2, ![R, C]⟩ ![0, 1] h2 (broadcastInDim ⟨2, ![R, 1]⟩ ![0] h1 MV) (ix2 p c) = ⨆ k : Fin C, y (ix2 p k) :=
    fun c => (congrFun (Cert.SageLayer.rowOf_broadcastInDim_col MV h1 h2 p) c).trans hMV
  generalize broadcastInDim ⟨2, ![R, C]⟩ ![0, 1] h2 (broadcastInDim ⟨2, ![R, 1]⟩ ![0] h1 MV) = BM at hBM ⊢
  show (y (ix2 p j) - BM (ix2 p j)) - broadcastInDim ⟨2, ![R, C]⟩ ![0, 1] h2 (Host.log (broadcastInDim ⟨2, ![R, 1]⟩ ![0] h1
          (Host.reduceAdd (Host.exp (subf y BM)) (constant (F := Ideal) s0 .f32 0x00000000#32) hrt hu))) (ix2 p j) = _
  rw [hBM j]
  have hcol : broadcastInDim ⟨2, ![R, C]⟩ ![0, 1] h2 (Host.log (broadcastInDim ⟨2, ![R, 1]⟩ ![0] h1
          (Host.reduceAdd (Host.exp (subf y BM)) (constant (F := Ideal) s0 .f32 0x00000000#32) hrt hu))) (ix2 p j)
      = Ideal.log (Host.reduceAdd (Host.exp (subf y BM)) (constant (F := Ideal) s0 .f32 0x00000000#32) hrt hu (ix1 p)) := by
    have := congrFun (Cert.SageLayer.rowOf_broadcastInDim_col (K := C)
      (fun i => Ideal.log (Host.reduceAdd (Host.exp (subf y BM)) (constant (F := Ideal) s0 .f32 0x00000000#32) hrt hu i)) h1 h2 p) j
    exact this
  rw [hcol]
  simp only [Host.reduceAdd, Ideal.hostReduceAdd_def]
  rw [Ideal.hostReduceAdd_single hrt hr]
  unfold lsmRow
  show _ - Ideal.log (Ideal.ofBits .f32 0x00000000#32 + _) = _
  rw [Ideal.ofBits_zero_f32, zero_add]
  refine congrArg (fun s => (y (ix2 p j) - ⨆ k : Fin C, y (ix2 p k)) - Ideal.log s) (Finset.sum_congr rfl fun k _ => ?_)
  rw [Cert.LibRowStat.lift_row hr p k]
  show Ideal.exp (y (ix2 p k) - BM (ix2 p k)) = _
  rw [hBM k]
  rfl

end

end Cert.LogSoftmaxRow

end
-- ==== Proof.KernelRows.lean ====
/-
  The two kernel bodies of the idealized program, read ROW BY ROW at the extended reals.

  Both bodies treat every row of their 5000-row blocks alone. With `a` the row of neighbour sums, `r` the reciprocal of
  the node's guarded in-degree, `x` the node's own row:
  * layer 1 stores the hidden row  h = relu ((∑ k, (a k · r) · W1l[k, j]) + (∑ k, x k · W1r[k, j]) + b1 j)  and, beside
    it, the projected row  p = j ↦ ∑ k, h k · W2l[k, j];
  * layer 2 forms  y = j ↦ ((∑ k, h k · W2r[k, j]) + a j · r) + b2 j  from the hidden row `h` and the row `a` of summed
    projections, and stores the logarithm of the softmax of `y`.
  A change of float format and a cast to the same shape are the identity on extended reals. The three results are
  named as whole-array functions for ANY number of rows (`hidArr`, `projArr`, `outArr`): the same function describes a
  block of 5000 rows and the array of 100000, which is what lets the blocks be put together.
-/
import proofs.«133953_j20117626814731_2_alg».proof.Proof.Gen.KernelIdeal.Skeleton
import proofs.«133953_j20117626814731_2_alg».proof.Proof.LibRowLayers
import proofs.«133953_j20117626814731_2_alg».proof.Proof.LibSageRows
import proofs.«133953_j20117626814731_2_alg».proof.Proof.LibColumnBroadcast
import proofs.«133953_j20117626814731_2_alg».proof.Proof.LibLogSoftmaxRow

noncomputable section

open scoped BigOperators

namespace Cert.KernelIdeal.Rows

open Cert.KernelIdeal Cert.KernelIdeal.Gen Idealize.ShloMosaic Idealize.ShloMosaic.ValueIdx
open Cert.RowLayers Cert.SageRows Cert.LogSoftmaxRow

/-! ## The three results as whole-array functions, for any number of rows -/

/-- Layer 2's row before the softmax: the hidden row through `w`, plus the summed projections scaled by the
    reciprocal in-degree, plus the bias. -/
def out2 {K J : ℕ} (h : Fin K → EReal) (w : (⟨2, ![K, J]⟩ : Shape).Idx → EReal) (a : Fin J → EReal) (r : EReal)
    (b : Fin J → EReal) : Fin J → EReal :=
  fun j => ((∑ k : Fin K, h k * w (ix2 k j)) + a j * r) + b j

/-- The hidden features: row `p` is the rectified combine of the scaled neighbour sums and the node's own row. -/
def hidArr {N : ℕ} (A : (⟨2, ![N, 64]⟩ : Shape).Idx → EReal) (IC : (⟨2, ![N, 1]⟩ : Shape).Idx → EReal)
    (X : (⟨2, ![N, 64]⟩ : Shape).Idx → EReal) (W1 W2 : (⟨2, ![64, 128]⟩ : Shape).Idx → EReal)
    (B : (⟨2, ![1, 128]⟩ : Shape).Idx → EReal) : (⟨2, ![N, 128]⟩ : Shape).Idx → EReal :=
  fun i => relu (Ideal.ofBits .f32 0x00000000#32)
    (conv (fun k => A (ix2 (i 0) k) * IC (ix2 (i 0) (0 : Fin 1))) (rowOf X (i 0)) W1 W2 (rowOf B 0)) (i 1)

/-- The projected features: row `p` is the hidden row through the third weight matrix. -/
def projArr {N : ℕ} (H : (⟨2, ![N, 128]⟩ : Shape).Idx → EReal) (W3 : (⟨2, ![128, 40]⟩ : Shape).Idx → EReal) :
    (⟨2, ![N, 40]⟩ : Shape).Idx → EReal :=
  fun i => ∑ k : Fin 128, rowOf H (i 0) k * W3 (ix2 k (i 1))

/-- The result: row `p` is the logarithm of the softmax of layer 2's row. -/
def outArr {N : ℕ} (A2 : (⟨2, ![N, 40]⟩ : Shape).Idx → EReal) (IC : (⟨2, ![N, 1]⟩ : Shape).Idx → EReal)
    (H : (⟨2, ![N, 128]⟩ : Shape).Idx → EReal) (W4 : (⟨2, ![128, 40]⟩ : Shape).Idx → EReal)
    (B2 : (⟨2, ![1, 40]⟩ : Shape).Idx → EReal) : (⟨2, ![N, 40]⟩ : Shape).Idx → EReal :=
  fun i => lsmRow (out2 (rowOf H (i 0)) W4 (rowOf A2 (i 0)) (IC (ix2 (i 0) (0 : Fin 1))) (rowOf B2 0)) (i 1)

/-! ## Row-locality: each result's row depends on the same row of the row-tiled inputs only -/

/-- If row `p` of the three row-tiled inputs is row `P` of three other arrays, row `p` of the hidden features is row
    `P` of theirs. -/
theorem hidArr_row_congr {N M : ℕ} (A : (⟨2, ![N, 64]⟩ : Shape).Idx → EReal) (IC : (⟨2, ![N, 1]⟩ : Shape).Idx → EReal)
    (X : (⟨2, ![N, 64]⟩ : Shape).Idx → EReal) (A' : (⟨2, ![M, 64]⟩ : Shape).Idx → EReal) (IC' : (⟨2, ![M, 1]⟩ : Shape).Idx → EReal)
    (X' : (⟨2, ![M, 64]⟩ : Shape).Idx → EReal) (W1 W2 : (⟨2, ![64, 128]⟩ : Shape).Idx → EReal)
    (B : (⟨2, ![1, 128]⟩ : Shape).Idx → EReal) (p : Fin N) (P : Fin M)
    (h0 : ∀ k, A (ix2 p k) = A' (ix2 P k)) (h1 : IC (ix2 p (0 : Fin 1)) = IC' (ix2 P (0 : Fin 1)))
    (h2 : ∀ k, X (ix2 p k) = X' (ix2 P k)) :
    rowOf (hidArr A IC X W1 W2 B) p = rowOf (hidArr A' IC' X' W1 W2 B) P := by
  funext q
  show relu (Ideal.ofBits .f32 0x00000000#32)
      (conv (fun k => A (ix2 p k) * IC (ix2 p (0 : Fin 1))) (rowOf X p) W1 W2 (rowOf B 0)) q
    = relu (Ideal.ofBits .f32 0x00000000#32)
      (conv (fun k => A' (ix2 P k) * IC' (ix2 P (0 : Fin 1))) (rowOf X' P) W1 W2 (rowOf B 0)) q
  have e0 : (fun k => A (ix2 p k) * IC (ix2 p (0 : Fin 1))) = fun k => A' (ix2 P k) * IC' (ix2 P (0 : Fin 1)) :=
    funext fun k => by rw [h0 k, h1]
  have e2 : rowOf X p = rowOf X' P := funext h2
  rw [e0, e2]

/-- The projected features at `(p, q)` depend on row `p` of the hidden features only. -/
theorem projArr_apply_congr {N M : ℕ} (H : (⟨2, ![N, 128]⟩ : Shape).Idx → EReal) (H' : (⟨2, ![M, 128]⟩ : Shape).Idx → EReal)
    (W3 : (⟨2, ![128, 40]⟩ : Shape).Idx → EReal) (p : Fin N) (P : Fin M) (q : Fin 40) (h : rowOf H p = rowOf H' P) :
    projArr H W3 (ix2 p q) = projArr H' W3 (ix2 P q) := by
  show (∑ k : Fin 128, rowOf H p k * W3 (ix2 k q)) = ∑ k : Fin 128, rowOf H' P k * W3 (ix2 k q)
  rw [h]

/-- The result at `(p, q)` depends on row `p` of the three row-tiled inputs only. -/
theorem outArr_apply_congr {N M : ℕ} (A2 : (⟨2, ![N, 40]⟩ : Shape).Idx → EReal) (IC : (⟨2, ![N, 1]⟩ : Shape).Idx → EReal)
    (H : (⟨2, ![N, 128]⟩ : Shape).Idx → EReal) (A2' : (⟨2, ![M, 40]⟩ : Shape).Idx → EReal) (IC' : (⟨2, ![M, 1]⟩ : Shape).Idx → EReal)
    (H' : (⟨2, ![M, 128]⟩ : Shape).Idx → EReal) (W4 : (⟨2, ![128, 40]⟩ : Shape).Idx → EReal) (B2 : (⟨2, ![1, 40]⟩ : Shape).Idx → EReal)
    (p : Fin N) (P : Fin M) (q : Fin 40)
    (h0 : ∀ k, A2 (ix2 p k) = A2' (ix2 P k)) (h1 : IC (ix2 p (0 : Fin 1)) = IC' (ix2 P (0 : Fin 1)))
    (h2 : ∀ k, H (ix2 p k) = H' (ix2 P k)) :
    outArr A2 IC H W4 B2 (ix2 p q) = outArr A2' IC' H' W4 B2 (ix2 P q) := by
  show lsmRow (out2 (rowOf H p) W4 (rowOf A2 p) (IC (ix2 p (0 : Fin 1))) (rowOf B2 0)) q
    = lsmRow (out2 (rowOf H' P) W4 (rowOf A2' P) (IC' (ix2 P (0 : Fin 1))) (rowOf B2 0)) q
  have e0 : rowOf A2 p = rowOf A2' P := funext h0
  have e2 : rowOf H p = rowOf H' P := funext h2
  rw [e0, e2, h1]

/-! ## The payloads are those functions of their blocks -/

/-- The printed contractions are plain rows-times-columns products. -/
theorem dot64 : RowsTimesCols dot_S5000x64_S64x128_S5000x128_1_0_0_1_n_n := by
  plain_product dot_S5000x64_S64x128_S5000x128_1_0_0_1_n_n
theorem dot128 : RowsTimesCols dot_S5000x128_S128x40_S5000x40_1_0_0_1_n_n := by
  plain_product dot_S5000x128_S128x40_S5000x40_1_0_0_1_n_n

/-- LAYER 1's hidden block, on a row. -/
theorem rowOf_pay1 (v0 : Vec Ideal S5000x64 .f32) (v2 : Vec Ideal S5000x1 .f32) (v7 : Vec Ideal S5000x64 .f32)
    (v9 v12 : Vec Ideal S64x128 .f32) (v18 : Vec Ideal S1x128 .f32) (p : Fin 5000) :
    rowOf (k0_pay1 (F := Ideal) v0 v2 v7 v9 v12 v18) p
      = relu (Ideal.ofBits .f32 0x00000000#32)
          (conv (fun k => v0 (ix2 p k) * v2 (ix2 p (0 : Fin 1))) (rowOf v7 p) v9 v12 (rowOf v18 0)) := by
  unfold k0_pay1
  rw [shapeCast_self v0, shapeCast_self v2, shapeCast_self v9, shapeCast_self v12, shapeCast_self v18]
  refine (rowOf_hidden_device dot64 none _ _ _ _ _ _ _ p).trans ?_
  have e : rowOf (truncf .bf16 (mulf v0 (broadcastTo S5000x64 v2 broadcasts_S5000x1_S5000x64)) bitsLt_bf16_f32 : FVec Ideal S5000x64 .bf16) p
      = fun k => v0 (ix2 p k) * v2 (ix2 p (0 : Fin 1)) := by
    funext k
    show v0 (ix2 p k) * broadcastTo S5000x64 v2 broadcasts_S5000x1_S5000x64 (ix2 p k) = _
    rw [Cert.ColumnBroadcast.broadcastTo_a1_ab_apply]
  rw [e]
  rfl

/-- LAYER 1's hidden block is `hidArr` of its input blocks. -/
theorem pay1_eq (v0 : Vec Ideal S5000x64 .f32) (v2 : Vec Ideal S5000x1 .f32) (v7 : Vec Ideal S5000x64 .f32)
    (v9 v12 : Vec Ideal S64x128 .f32) (v18 : Vec Ideal S1x128 .f32) :
    k0_pay1 (F := Ideal) v0 v2 v7 v9 v12 v18 = hidArr v0 v2 v7 v9 v12 v18 := by
  funext i
  obtain ⟨p, q, rfl⟩ : ∃ (p : Fin 5000) (q : Fin 128), i = ix2 p q := ⟨i 0, i 1, eq_ix2 i⟩
  exact congrFun (rowOf_pay1 v0 v2 v7 v9 v12 v18 p) q

/-- LAYER 1's projected block is `projArr` of the hidden block. -/
theorem pay2_eq (v0 : Vec Ideal S5000x64 .f32) (v2 : Vec Ideal S5000x1 .f32) (v7 : Vec Ideal S5000x64 .f32)
    (v9 v12 : Vec Ideal S64x128 .f32) (v18 : Vec Ideal S1x128 .f32) (v25 : Vec Ideal S128x40 .f32) :
    k0_pay2 (F := Ideal) v0 v2 v7 v9 v12 v18 v25 = projArr (hidArr v0 v2 v7 v9 v12 v18) v25 := by
  rw [← pay1_eq]
  funext i
  obtain ⟨p, q, rfl⟩ : ∃ (p : Fin 5000) (q : Fin 40), i = ix2 p q := ⟨i 0, i 1, eq_ix2 i⟩
  unfold k0_pay2
  rw [shapeCast_self v25]
  exact congrFun (rowOf_matmul_zero dot128 none _ _ p) q

/-- LAYER 2's row before the softmax, on a row of its block. -/
theorem rowOf_pre2 (v0 : Vec Ideal S5000x40 .f32) (v2 : Vec Ideal S5000x1 .f32) (v6 : Vec Ideal S5000x128 .f32)
    (v9 : Vec Ideal S128x40 .f32) (v14 : Vec Ideal S1x40 .f32) (p : Fin 5000) :
    rowOf (addf (addf (matmul dot_S5000x128_S128x40_S5000x40_1_0_0_1_n_n none (truncf .bf16 v6 bitsLt_bf16_f32 : FVec Ideal S5000x128 .bf16)
          (truncf .bf16 v9 bitsLt_bf16_f32 : FVec Ideal S128x40 .bf16) (constant (F := Ideal) S5000x40 .f32 0x00000000#32))
        (mulf v0 (broadcastTo S5000x40 v2 broadcasts_S5000x1_S5000x40))) (broadcastTo S5000x40 v14 broadcasts_S1x40_S5000x40)) p
      = out2 (rowOf v6 p) v9 (rowOf v0 p) (v2 (ix2 p (0 : Fin 1))) (rowOf v14 0) := by
  rw [rowOf_addf, rowOf_addf, rowOf_matmul_zero dot128, rowOf_broadcastTo]
  funext j
  show ((∑ k : Fin 128, v6 (ix2 p k) * v9 (ix2 k j)) + v0 (ix2 p j) * broadcastTo S5000x40 v2 broadcasts_S5000x1_S5000x40 (ix2 p j)) + v14 (ix2 0 j) = _
  rw [Cert.ColumnBroadcast.broadcastTo_a1_ab_apply]
  rfl

/-- LAYER 2's block is `outArr` of its input blocks. -/
theorem pay_layer2_eq (v0 : Vec Ideal S5000x40 .f32) (v2 : Vec Ideal S5000x1 .f32) (v6 : Vec Ideal S5000x128 .f32)
    (v9 : Vec Ideal S128x40 .f32) (v14 : Vec Ideal S1x40 .f32) :
    k1_pay1 (F := Ideal) v0 v2 v6 v9 v14 = outArr v0 v2 v6 v9 v14 := by
  funext i
  obtain ⟨p, q, rfl⟩ : ∃ (p : Fin 5000) (q : Fin 40), i = ix2 p q := ⟨i 0, i 1, eq_ix2 i⟩
  unfold k1_pay1
  rw [shapeCast_self v0, shapeCast_self v2, shapeCast_self v6, shapeCast_self v9, shapeCast_self v14]
  refine (device_apply (by decide) _ reduces_S5000x40_S5000 shapeCasts_S5000_S5000x1 broadcasts_S5000x1_S5000x40 _ _ rfl rfl p q).trans ?_
  rw [rowOf_pre2]
  rfl

end Cert.KernelIdeal.Rows

end
-- ==== Proof.KernelLayer1.lean ====
/-
  The layer-1 call, from blocks to arrays, at the extended reals.

  The call runs over 20 grid points. At point `t` the three row-tiled inputs (the neighbour sums, the reciprocal
  in-degrees, the features) are staged as their rows 5000·t … 5000·t + 4999, the four small operands (two weight
  matrices, the bias row, the projection matrix) whole, and the two outputs are written back to the same 5000 rows.
  The body's two results are row-local functions of its blocks (`hidArr`, `projArr`), so the block written at `t` is
  block `t` of the same function of the whole arrays; the 20 blocks cover every row; hence after the call the two
  output arrays hold `hidArr` and `projArr` of the arrays the call found (whatever those are: the region's entry
  contents are a parameter `V` here).
-/
import proofs.«133953_j20117626814731_2_alg».proof.Proof.Gen.KernelIdeal.Frame
import proofs.«133953_j20117626814731_2_alg».proof.Proof.KernelRows

set_option maxRecDepth 16384

noncomputable section

open scoped BigOperators

namespace Cert.KernelIdeal.Layer1

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat Cfg Window)
open Cert.RowLayers Cert.SageRows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, block column 0; the small
    operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of block `t` is row `5000·t + p` of the array. -/
def rowAt (t : Fin cfg0.N) (p : Fin 5000) : Fin 100000 :=
  ⟨t.val * 5000 + p.val, by have hN : cfg0.N = 20 := N_0; have := t.isLt; have := p.isLt; omega⟩

/-- The hidden features after the call, as a function of the arrays the call found. -/
abbrev hidden (c : Dev nD) : S100000x128.Idx → EReal :=
  hidArr (V c (Pipeline.arrRef spec0 0)) (V c (Pipeline.arrRef spec0 1)) (V c (Pipeline.arrRef spec0 2))
    (V c (Pipeline.arrRef spec0 3)) (V c (Pipeline.arrRef spec0 5)) (V c (Pipeline.arrRef spec0 4))

/-- The projected features after the call. -/
abbrev projected (c : Dev nD) : S100000x40.Idx → EReal :=
  projArr (hidden V c) (V c (Pipeline.arrRef spec0 6))

/-! ## The input blocks, read where the output's rows say -/

theorem blk0 (c : Dev nD) (t : Fin cfg0.N) (p : Fin 5000) (k : Fin 64) :
    iblk0 V c 0 t (ix2 p k) = V c (Pipeline.arrRef spec0 0) (ix2 (rowAt t p) k) := by
  obtain ⟨e0, e1, -⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem blk1 (c : Dev nD) (t : Fin cfg0.N) (p : Fin 5000) :
    iblk0 V c 1 t (ix2 p (0 : Fin 1)) = V c (Pipeline.arrRef spec0 1) (ix2 (rowAt t p) (0 : Fin 1)) := by
  obtain ⟨-, -, e0, e1, -⟩ := idx_facts t
  show V c (Pipeline.arrRef spec0 1) (((cfg0.win 1).blk t).view.emb (ix2 p (0 : Fin 1))) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem blk2 (c : Dev nD) (t : Fin cfg0.N) (p : Fin 5000) (k : Fin 64) :
    iblk0 V c 2 t (ix2 p k) = V c (Pipeline.arrRef spec0 2) (ix2 (rowAt t p) k) := by
  obtain ⟨-, -, -, -, e0, e1, -⟩ := idx_facts t
  show V c (Pipeline.arrRef spec0 2) (((cfg0.win 2).blk t).view.emb (ix2 p k)) = _
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 64 + 1 * k.val = k.val; omega

theorem blk3 (c : Dev nD) (t : Fin cfg0.N) : iblk0 V c 3 t = V c (Pipeline.arrRef spec0 3) := by
  obtain ⟨-, -, -, -, -, -, e0, e1, -⟩ := idx_facts t
  funext y
  show V c (Pipeline.arrRef spec0 3) (((cfg0.win 3).blk t).view.emb y) = _
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

theorem blk4 (c : Dev nD) (t : Fin cfg0.N) : iblk0 V c 4 t = V c (Pipeline.arrRef spec0 4) := by
  obtain ⟨-, -, -, -, -, -, -, -, e0, e1, -⟩ := idx_facts t
  funext y
  show V c (Pipeline.arrRef spec0 4) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk5 (c : Dev nD) (t : Fin cfg0.N) : iblk0 V c 5 t = V c (Pipeline.arrRef spec0 5) := by
  obtain ⟨-, -, -, -, -, -, -, -, -, -, e0, e1, -⟩ := idx_facts t
  funext y
  show V c (Pipeline.arrRef spec0 5) (((cfg0.win 5).blk t).view.emb y) = _
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 128 + 1 * (y 1).val = (y 1).val; omega

theorem blk6 (c : Dev nD) (t : Fin cfg0.N) : iblk0 V c 6 t = V c (Pipeline.arrRef spec0 6) := by
  obtain ⟨-, -, -, -, -, -, -, -, -, -, -, -, e0, e1, -⟩ := idx_facts t
  funext y
  show V c (Pipeline.arrRef spec0 6) (((cfg0.win 6).blk t).view.emb y) = _
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 40 + 1 * (y 1).val = (y 1).val; omega

/-- Where the hidden block's entry `(p, q)` lands in the array. -/
theorem emb7 (t : Fin cfg0.N) (p : Fin 5000) (q : Fin 128) :
    ((cfg0.win 7).blk t).view.emb (ix2 p q) = ix2 (rowAt t p) q := by
  obtain ⟨-, -, -, -, -, -, -, -, -, -, -, -, -, -, e0, e1, -⟩ := idx_facts t
  refine funext fun a => Fin.ext ?_
  match a with
  | ⟨0, _⟩ => show win0_7.index t (0 : Fin 2) * 5000 + 1 * p.val = t.val * 5000 + p.val; omega
  | ⟨1, _⟩ => show win0_7.index t (1 : Fin 2) * 128 + 1 * q.val = q.val; omega

/-- Where the projected block's entry `(p, q)` lands in the array. -/
theorem emb8 (t : Fin cfg0.N) (p : Fin 5000) (q : Fin 40) :
    ((cfg0.win 8).blk t).view.emb (ix2 p q) = ix2 (rowAt t p) q := by
  obtain ⟨-, -, -, -, -, -, -, -, -, -, -, -, -, -, -, -, e0, e1⟩ := idx_facts t
  refine funext fun a => Fin.ext ?_
  match a with
  | ⟨0, _⟩ => show win0_8.index t (0 : Fin 2) * 5000 + 1 * p.val = t.val * 5000 + p.val; omega
  | ⟨1, _⟩ => show win0_8.index t (1 : Fin 2) * 40 + 1 * q.val = q.val; omega

/-- The hidden block of point `t`, on a row, is the array function's row `5000·t + p`. -/
theorem hid_block_row (c : Dev nD) (t : Fin cfg0.N) (p : Fin 5000) :
    rowOf (hidArr (iblk0 V c 0 t) (iblk0 V c 1 t) (iblk0 V c 2 t) (iblk0 V c 3 t) (iblk0 V c 5 t) (iblk0 V c 4 t)) p
      = rowOf (hidden V c) (rowAt t p) := by
  rw [blk3, blk4, blk5]
  exact hidArr_row_congr (iblk0 V c 0 t) (iblk0 V c 1 t) (iblk0 V c 2 t) (V c (Pipeline.arrRef spec0 0))
    (V c (Pipeline.arrRef spec0 1)) (V c (Pipeline.arrRef spec0 2)) (V c (Pipeline.arrRef spec0 3)) (V c (Pipeline.arrRef spec0 5))
    (V c (Pipeline.arrRef spec0 4)) p (rowAt t p) (blk0 V c t p) (blk1 V c t p) (blk2 V c t p)

/-! ## What point `t` writes back -/

/-- WHAT POINT `t` WRITES BACK to the hidden-feature array is block `t` of `hidden`. -/
theorem flushed7 (c : Dev nD) (t : Fin cfg0.N) :
    (dat0 V c).flushed 7 t = ((cfg0.win 7).blk t).view.read (Elt Ideal) (hidden V c) := by
  show (cfg0.win 7).cut (grid0.coords t) ((dat0 V c).after 7 t) = _
  rw [after0_7]
  unfold out0_7
  rw [View.canon_unit_zero hz]
  simp only [View.ld_unit_zero (S := S5000x64) hz, View.ld_unit_zero (S := S5000x1) hz, View.ld_unit_zero (S := S64x128) hz,
    View.ld_unit_zero (S := S1x128) hz]
  rw [pay1_eq]
  funext j
  obtain ⟨p, q, rfl⟩ : ∃ (p : Fin 5000) (q : Fin 128), j = ix2 p q := ⟨j 0, j 1, eq_ix2 j⟩
  show rowOf (hidArr (iblk0 V c 0 t) (iblk0 V c 1 t) (iblk0 V c 2 t) (iblk0 V c 3 t) (iblk0 V c 5 t) (iblk0 V c 4 t)) p q
    = hidden V c (((cfg0.win 7).blk t).view.emb (ix2 p q))
  rw [hid_block_row, emb7]
  rfl

/-- WHAT POINT `t` WRITES BACK to the projected-feature array is block `t` of `projected`. -/
theorem flushed8 (c : Dev nD) (t : Fin cfg0.N) :
    (dat0 V c).flushed 8 t = ((cfg0.win 8).blk t).view.read (Elt Ideal) (projected V c) := by
  show (cfg0.win 8).cut (grid0.coords t) ((dat0 V c).after 8 t) = _
  rw [after0_8]
  unfold out0_8
  rw [View.canon_unit_zero hz]
  simp only [View.ld_unit_zero (S := S5000x64) hz, View.ld_unit_zero (S := S5000x1) hz, View.ld_unit_zero (S := S64x128) hz,
    View.ld_unit_zero (S := S1x128) hz, View.ld_unit_zero (S := S128x40) hz]
  rw [pay2_eq]
  funext j
  obtain ⟨p, q, rfl⟩ : ∃ (p : Fin 5000) (q : Fin 40), j = ix2 p q := ⟨j 0, j 1, eq_ix2 j⟩
  show projArr (hidArr (iblk0 V c 0 t) (iblk0 V c 1 t) (iblk0 V c 2 t) (iblk0 V c 3 t) (iblk0 V c 5 t) (iblk0 V c 4 t)) (iblk0 V c 6 t) (ix2 p q)
    = projected V c (((cfg0.win 8).blk t).view.emb (ix2 p q))
  rw [blk6, emb8]
  exact projArr_apply_congr _ (hidden V c) (V c (Pipeline.arrRef spec0 6)) p (rowAt t p) q (hid_block_row V c t p)

/-! ## The blocks cover the arrays -/

theorem mem_blk7 (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v27_0).slice (win0_7.rect t)).set ↔ _
  rw [View.set_slice_whole, Rect.mem_set_unit]
  exact Iff.rfl

theorem mem_blk8 (t : Fin cfg0.N) (i : S100000x40.Idx) :
    i ∈ ((cfg0.win 8).blk t).view.set ↔ ∀ a : Fin 2, win0_8.index t a * S5000x40.size a ≤ (i a).val
      ∧ (i a).val < win0_8.index t a * S5000x40.size a + S5000x40.size a := by
  show i ∈ ((View.whole main_v27_1).slice (win0_8.rect t)).set ↔ _
  rw [View.set_slice_whole, Rect.mem_set_unit]
  exact Iff.rfl

/-- The point whose block holds row `r`: `r / 5000`. -/
def pointOf (r : ℕ) (hr : r < 100000) : Fin cfg0.N :=
  ⟨r / 5000, by have hN : cfg0.N = 20 := N_0; omega⟩

theorem cover7 (i : S100000x128.Idx) : ∃ t : Fin cfg0.N, (cfg0.win 7).flush t = true ∧ i ∈ ((cfg0.win 7).blk t).view.set := by
  have h0 : (i 0).val < 100000 := (i 0).isLt
  have h1 : (i 1).val < 128 := (i 1).isLt
  refine ⟨pointOf (i 0).val h0, flush0_7 _, ?_⟩
  obtain ⟨-, -, -, -, -, -, -, -, -, -, -, -, -, -, e0, e1, -⟩ := idx_facts (pointOf (i 0).val h0)
  have hv : (pointOf (i 0).val h0).val = (i 0).val / 5000 := rfl
  rw [mem_blk7]
  intro a
  match a with
  | ⟨0, _⟩ =>
    show win0_7.index (pointOf (i 0).val h0) (0 : Fin 2) * 5000 ≤ (i 0).val
      ∧ (i 0).val < win0_7.index (pointOf (i 0).val h0) (0 : Fin 2) * 5000 + 5000
    omega
  | ⟨1, _⟩ =>
    show win0_7.index (pointOf (i 0).val h0) (1 : Fin 2) * 128 ≤ (i 1).val
      ∧ (i 1).val < win0_7.index (pointOf (i 0).val h0) (1 : Fin 2) * 128 + 128
    omega

theorem cover8 (i : S100000x40.Idx) : ∃ t : Fin cfg0.N, (cfg0.win 8).flush t = true ∧ i ∈ ((cfg0.win 8).blk t).view.set := by
  have h0 : (i 0).val < 100000 := (i 0).isLt
  have h1 : (i 1).val < 40 := (i 1).isLt
  refine ⟨pointOf (i 0).val h0, flush0_8 _, ?_⟩
  obtain ⟨-, -, -, -, -, -, -, -, -, -, -, -, -, -, -, -, e0, e1⟩ := idx_facts (pointOf (i 0).val h0)
  have hv : (pointOf (i 0).val h0).val = (i 0).val / 5000 := rfl
  rw [mem_blk8]
  intro a
  match a with
  | ⟨0, _⟩ =>
    show win0_8.index (pointOf (i 0).val h0) (0 : Fin 2) * 5000 ≤ (i 0).val
      ∧ (i 0).val < win0_8.index (pointOf (i 0).val h0) (0 : Fin 2) * 5000 + 5000
    omega
  | ⟨1, _⟩ =>
    show win0_8.index (pointOf (i 0).val h0) (1 : Fin 2) * 40 ≤ (i 1).val
      ∧ (i 1).val < win0_8.index (pointOf (i 0).val h0) (1 : Fin 2) * 40 + 40
    omega

/-! ## The arrays after the call -/

/-- THE HIDDEN-FEATURE ARRAY after the call. -/
theorem final7 (c : Dev nD) : (dat0 V c).arrAt 7 cfg0.N = hidden V c :=
  (dat0 V c).arrAt_eq_of_cover 7 (hidden V c) (fun t _ => flushed7 V c t) cover7

/-- THE PROJECTED-FEATURE ARRAY after the call. -/
theorem final8 (c : Dev nD) : (dat0 V c).arrAt 8 cfg0.N = projected V c :=
  (dat0 V c).arrAt_eq_of_cover 8 (projected V c) (fun t _ => flushed8 V c t) cover8

end Cert.KernelIdeal.Layer1

end
-- ==== Proof.KernelLayer2.lean ====
/-
  The layer-2 call, from blocks to the result array, at the extended reals.

  Twenty grid points again. At point `t` the summed projections, the reciprocal in-degrees and the hidden features are
  staged as their rows 5000·t … 5000·t + 4999, the root weight matrix and the bias row whole, and the result block is
  written back to the same rows. The body's result is a row-local function of its blocks (`outArr`: the logarithm of the
  softmax of each row's combine), so each written block is a block of `outArr` of the whole arrays, the blocks cover every
  row, and after the call the result array holds `outArr` of the arrays the call found (a parameter `V` here).
-/
import proofs.«133953_j20117626814731_2_alg».proof.Proof.Gen.KernelIdeal.Frame
import proofs.«133953_j20117626814731_2_alg».proof.Proof.KernelRows

set_option maxRecDepth 16384

noncomputable section

open scoped BigOperators

namespace Cert.KernelIdeal.Layer2

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat Cfg Window)
open Cert.RowLayers Cert.SageRows Cert.LogSoftmaxRow

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, block column 0; the two small
    operands at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000·t + p` of the array. -/
def rowAt (t : Fin cfg1.N) (p : Fin 5000) : Fin 100000 :=
  ⟨t.val * 5000 + p.val, by have hN : cfg1.N = 20 := N_1; have := t.isLt; have := p.isLt; omega⟩

/-- The result array after the call, as a function of the arrays the call found. -/
abbrev result (c : Dev nD) : S100000x40.Idx → EReal :=
  outArr (V c (Pipeline.arrRef spec1 0)) (V c (Pipeline.arrRef spec1 1)) (V c (Pipeline.arrRef spec1 2))
    (V c (Pipeline.arrRef spec1 3)) (V c (Pipeline.arrRef spec1 4))

/-! ## The input blocks, read where the output's rows say -/

theorem blk0 (c : Dev nD) (t : Fin cfg1.N) (p : Fin 5000) (k : Fin 40) :
    iblk1 V c 0 t (ix2 p k) = V c (Pipeline.arrRef spec1 0) (ix2 (rowAt t p) k) := by
  obtain ⟨e0, e1, -⟩ := idx_facts t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 40 + 1 * k.val = k.val; omega

theorem blk1 (c : Dev nD) (t : Fin cfg1.N) (p : Fin 5000) :
    iblk1 V c 1 t (ix2 p (0 : Fin 1)) = V c (Pipeline.arrRef spec1 1) (ix2 (rowAt t p) (0 : Fin 1)) := by
  obtain ⟨-, -, e0, e1, -⟩ := idx_facts t
  show V c (Pipeline.arrRef spec1 1) (((cfg1.win 1).blk t).view.emb (ix2 p (0 : Fin 1))) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

theorem blk2 (c : Dev nD) (t : Fin cfg1.N) (p : Fin 5000) (k : Fin 128) :
    iblk1 V c 2 t (ix2 p k) = V c (Pipeline.arrRef spec1 2) (ix2 (rowAt t p) k) := by
  obtain ⟨-, -, -, -, e0, e1, -⟩ := idx_facts t
  show V c (Pipeline.arrRef spec1 2) (((cfg1.win 2).blk t).view.emb (ix2 p k)) = _
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega

theorem blk3 (c : Dev nD) (t : Fin cfg1.N) : iblk1 V c 3 t = V c (Pipeline.arrRef spec1 3) := by
  obtain ⟨-, -, -, -, -, -, e0, e1, -⟩ := idx_facts t
  funext y
  show V c (Pipeline.arrRef spec1 3) (((cfg1.win 3).blk t).view.emb y) = _
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 40 + 1 * (y 1).val = (y 1).val; omega

theorem blk4 (c : Dev nD) (t : Fin cfg1.N) : iblk1 V c 4 t = V c (Pipeline.arrRef spec1 4) := by
  obtain ⟨-, -, -, -, -, -, -, -, e0, e1, -⟩ := idx_facts t
  funext y
  show V c (Pipeline.arrRef spec1 4) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 40 + 1 * (y 1).val = (y 1).val; omega

/-- Where the result block's entry `(p, q)` lands in the array. -/
theorem emb5 (t : Fin cfg1.N) (p : Fin 5000) (q : Fin 40) :
    ((cfg1.win 5).blk t).view.emb (ix2 p q) = ix2 (rowAt t p) q := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 40 + 1 * q.val = q.val; omega

/-! ## What point `t` writes back -/

/-- WHAT POINT `t` WRITES BACK to the result array is block `t` of `result`. -/
theorem flushed5 (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x40) hz, View.ld_unit_zero (S := S5000x1) hz, View.ld_unit_zero (S := S5000x128) hz,
    View.ld_unit_zero (S := S128x40) hz, View.ld_unit_zero (S := S1x40) hz]
  rw [pay_layer2_eq]
  funext j
  obtain ⟨p, q, rfl⟩ : ∃ (p : Fin 5000) (q : Fin 40), j = ix2 p q := ⟨j 0, j 1, eq_ix2 j⟩
  show outArr (iblk1 V c 0 t) (iblk1 V c 1 t) (iblk1 V c 2 t) (iblk1 V c 3 t) (iblk1 V c 4 t) (ix2 p q)
    = result V c (((cfg1.win 5).blk t).view.emb (ix2 p q))
  rw [blk3, blk4, emb5]
  exact outArr_apply_congr (iblk1 V c 0 t) (iblk1 V c 1 t) (iblk1 V c 2 t) (V c (Pipeline.arrRef spec1 0))
    (V c (Pipeline.arrRef spec1 1)) (V c (Pipeline.arrRef spec1 2)) (V c (Pipeline.arrRef spec1 3)) (V c (Pipeline.arrRef spec1 4))
    p (rowAt t p) q (blk0 V c t p) (blk1 V c t p) (blk2 V c t p)

/-! ## The blocks cover the array -/

theorem mem_blk5 (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v40).slice (win1_5.rect t)).set ↔ _
  rw [View.set_slice_whole, Rect.mem_set_unit]
  exact Iff.rfl

/-- The point whose block holds row `r`: `r / 5000`. -/
def pointOf (r : ℕ) (hr : r < 100000) : Fin cfg1.N :=
  ⟨r / 5000, by have hN : cfg1.N = 20 := N_1; omega⟩

theorem cover5 (i : S100000x40.Idx) : ∃ t : Fin cfg1.N, (cfg1.win 5).flush t = true ∧ i ∈ ((cfg1.win 5).blk t).view.set := by
  have h0 : (i 0).val < 100000 := (i 0).isLt
  have h1 : (i 1).val < 40 := (i 1).isLt
  refine ⟨pointOf (i 0).val h0, flush1_5 _, ?_⟩
  obtain ⟨-, -, -, -, -, -, -, -, -, -, e0, e1⟩ := idx_facts (pointOf (i 0).val h0)
  have hv : (pointOf (i 0).val h0).val = (i 0).val / 5000 := rfl
  rw [mem_blk5]
  intro a
  match a with
  | ⟨0, _⟩ =>
    show win1_5.index (pointOf (i 0).val h0) (0 : Fin 2) * 5000 ≤ (i 0).val
      ∧ (i 0).val < win1_5.index (pointOf (i 0).val h0) (0 : Fin 2) * 5000 + 5000
    omega
  | ⟨1, _⟩ =>
    show win1_5.index (pointOf (i 0).val h0) (1 : Fin 2) * 40 ≤ (i 1).val
      ∧ (i 1).val < win1_5.index (pointOf (i 0).val h0) (1 : Fin 2) * 40 + 40
    omega

/-- THE RESULT ARRAY after the call. -/
theorem final5 (c : Dev nD) : (dat1 V c).arrAt 5 cfg1.N = result V c :=
  (dat1 V c).arrAt_eq_of_cover 5 (result V c) (fun t _ => flushed5 V c t) cover5

end Cert.KernelIdeal.Layer2

end
-- ==== Proof.KernelRun.lean ====
/-
  The idealized kernel's run with its result array in view.

  @main is four segments: host operations, the layer-1 call, host operations, the layer-2 call. The library's launch
  theorem for such a chain of segments gives, of every weakly fair execution, that it terminates without a fault in a
  state whose unscoped buffers hold the last segment boundary's contents `W4`. Reading that state at the eight argument
  buffers gives the frame; reading it ALSO at the result buffer gives the result array as `W4` has it, which is what the
  layer-2 call's write-backs leave in its output window's array (`result_arr`).
-/
import proofs.«133953_j20117626814731_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the eight argument arrays as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer is the layer-2 call's output window's array: at the last boundary it holds what that call's
    write-backs leave, folded over all twenty grid points. -/
theorem result_arr (c : Dev nD) :
    W4 m ρ c (Proc.devRef .tc main_v40) = (dat1 (V3 m ρ) c).arrAt 5 cfg1.N := W4_arr m ρ c 5

end Cert.KernelIdeal.KRun

end
-- ==== Proof.KernelHost.lean ====
/-
  The idealized kernel's host operations, and its result as ONE function of the eight arguments.

  Before the layer-1 call the host splits the edge list into its source and target rows, wraps a negative source number
  once by the node count, counts every node's in-edges by a scatter-add of ones, takes the reciprocal of the count
  guarded from below by one (as a column), sums the source nodes' feature rows at the targets (a gather of rows and a
  scatter-add into zeros), transposes the three weight matrices and gives the first bias a unit leading axis. Between
  the calls it sums the PROJECTED rows of the source nodes at the targets, transposes the root weight matrix and gives
  the second bias a unit axis. Each of these is named here as a function of the argument arrays, the buffer contents at
  the two calls' entries are read back to those names, and the two calls' closed forms are composed: `kernelValue`.
-/
import proofs.«133953_j20117626814731_2_alg».proof.Proof.Gen.KernelIdeal.Frame
import proofs.«133953_j20117626814731_2_alg».proof.Proof.KernelRows
import proofs.«133953_j20117626814731_2_alg».proof.Proof.KernelLayer1
import proofs.«133953_j20117626814731_2_alg».proof.Proof.KernelLayer2
import proofs.«133953_j20117626814731_2_alg».proof.Proof.KernelRun
import Idealize.ShloMosaic.Lib.StableHlo.Run

set_option maxRecDepth 16384

noncomputable section

namespace Cert.KernelIdeal.HostSide

open Cert.KernelIdeal Cert.KernelIdeal.Gen Cert.KernelIdeal.Rows
open Idealize.ShloMosaic Idealize.ShloMosaic.TcCoe Idealize.ShloMosaic.ValueIdx Idealize.SL.Sem Idealize.ShloMosaic.StableHlo

/-! ## The host's stages as functions of the arguments -/

/-- The edge list: row 0 the source node numbers, row 1 the target node numbers. -/
abbrev Edges := (⟨S2x1600000, .i32⟩ : BufTy).Contents (Elt Ideal)

/-- The source numbers as read. -/
def srcVec (ei : Edges) : (⟨S1600000, .i32⟩ : BufTy).Contents (Elt Ideal) :=
  shapeCast _ (extractStridedSlice S1x1600000 ![0, 0] ei slices_S2x1600000_S1x1600000_0_0) shapeCasts_S1x1600000_S1600000

/-- The target numbers as read. -/
def dstVec (ei : Edges) : (⟨S1600000, .i32⟩ : BufTy).Contents (Elt Ideal) :=
  shapeCast _ (extractStridedSlice S1x1600000 ![1, 0] ei slices_S2x1600000_S1x1600000_1_0) shapeCasts_S1x1600000_S1600000

/-- The source numbers, a negative one wrapped once by the node count, as a column of start indices. -/
def srcCol (ei : Edges) : (⟨S1600000x1, .i32⟩ : BufTy).Contents (Elt Ideal) :=
  broadcastInDim S1600000x1 ![0] bcast_S1600000_S1600000x1_0
    (select (cmpi .slt (srcVec ei) (broadcastInDim S1600000 ![] bcast_S_S1600000 (constantI S_ 32 0#32)))
      (addi (srcVec ei) (broadcastInDim S1600000 ![] bcast_S_S1600000 (constantI S_ 32 100000#32))) (srcVec ei))

/-- The target numbers as a column of scatter indices. -/
def dstCol (ei : Edges) : (⟨S1600000x1, .i32⟩ : BufTy).Contents (Elt Ideal) :=
  broadcastInDim S1600000x1 ![0] bcast_S1600000_S1600000x1_0 (dstVec ei)

/-- Every node's number of in-edges: ones added at the targets. -/
def cnt (ei : Edges) : FVec Ideal S100000 .f32 :=
  Host.scatterAdd scatter_S100000_S1600000x1_S1600000_n_0_0_1
    (broadcastInDim S100000 ![] bcast_S_S100000 (constant (F := Ideal) S_ .f32 0x00000000#32)) (dstCol ei)
    (broadcastInDim S1600000 ![] bcast_S_S1600000 (constant (F := Ideal) S_ .f32 0x3F800000#32))

/-- The reciprocal of the count guarded from below by one, as a column. -/
def invCnt (ei : Edges) : FVec Ideal S100000x1 .f32 :=
  shapeCast _ (Host.divf (broadcastInDim S100000 ![] bcast_S_S100000 (constant (F := Ideal) S_ .f32 0x3F800000#32))
    (maximumf (cnt ei) (broadcastInDim S100000 ![] bcast_S_S100000 (constant (F := Ideal) S_ .f32 0x3F800000#32)))) shapeCasts_S100000_S100000x1

/-- The source nodes' feature rows summed at the targets. -/
def agg1 (x : FVec Ideal S100000x64 .f32) (ei : Edges) : FVec Ideal S100000x64 .f32 :=
  Host.scatterAdd scatter_S100000x64_S1600000x1_S1600000x64_1_0_0_1
    (broadcastInDim S100000x64 ![] bcast_S_S100000x64 (constant (F := Ideal) S_ .f32 0x00000000#32)) (dstCol ei)
    (Host.gather gather_S100000x64_S1600000x1_S1600000x64_1_0_n_n_0_1_164 x (srcCol ei))

/-- The source nodes' PROJECTED rows summed at the targets. -/
def agg2 (P : FVec Ideal S100000x40 .f32) (ei : Edges) : FVec Ideal S100000x40 .f32 :=
  Host.scatterAdd scatter_S100000x40_S1600000x1_S1600000x40_1_0_0_1
    (broadcastInDim S100000x40 ![] bcast_S_S100000x40 (constant (F := Ideal) S_ .f32 0x00000000#32)) (dstCol ei)
    (Host.gather gather_S100000x40_S1600000x1_S1600000x40_1_0_n_n_0_1_140 P (srcCol ei))

/-- A layer-1 weight matrix transposed to [64, 128]. -/
def tW1 (w : FVec Ideal S128x64 .f32) : FVec Ideal S64x128 .f32 := transpose S64x128 [1, 0] w transposes_S128x64_S64x128_1_0
/-- A layer-2 weight matrix transposed to [128, 40]. -/
def tW2 (w : FVec Ideal S40x128 .f32) : FVec Ideal S128x40 .f32 := transpose S128x40 [1, 0] w transposes_S40x128_S128x40_1_0
/-- The first bias with a unit leading axis. -/
def rowB1 (b : FVec Ideal S128 .f32) : FVec Ideal S1x128 .f32 := shapeCast _ b shapeCasts_S128_S1x128
/-- The second bias with a unit leading axis. -/
def rowB2 (b : FVec Ideal S40 .f32) : FVec Ideal S1x40 .f32 := shapeCast _ b shapeCasts_S40_S1x40

/-- THE KERNEL'S RESULT as one function of the eight arguments. -/
def kernelValue (x : FVec Ideal S100000x64 .f32) (ei : Edges) (w1l : FVec Ideal S128x64 .f32) (b1 : FVec Ideal S128 .f32)
    (w1r : FVec Ideal S128x64 .f32) (w2l : FVec Ideal S40x128 .f32) (b2 : FVec Ideal S40 .f32) (w2r : FVec Ideal S40x128 .f32) :
    S100000x40.Idx → EReal :=
  outArr (agg2 (projArr (hidArr (agg1 x ei) (invCnt ei) x (tW1 w1l) (tW1 w1r) (rowB1 b1)) (tW2 w2l)) ei) (invCnt ei)
    (hidArr (agg1 x ei) (invCnt ei) x (tW1 w1l) (tW1 w1r) (rowB1 b1)) (tW2 w2r) (rowB2 b2)

/-! ## The buffers at the layer-1 call's entry -/

variable (m : (ℓ : Loc nD τ sig) → Buf (Elt Ideal) ℓ) (ρ : Dev nD → PrngReg)

theorem W1_v1 (c : Dev nD) : W1 m ρ c (Proc.devRef .tc main_v1) = srcVec (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = dstVec (m ((c : Thread nD τ).loc main_arg1)) := by
  show StableHlo.after hostOps0 (W0 m ρ c) (Proc.devRef .tc main_v3) = _
  after_results_simp <;> rfl
set_option maxHeartbeats 4000000 in
theorem W1_v12 (c : Dev nD) : W1 m ρ c (Proc.devRef .tc main_v12) = invCnt (m ((c : Thread nD τ).loc main_arg1)) := by
  show StableHlo.after hostOps0 (W0 m ρ c) (Proc.devRef .tc main_v12) = _
  after_results_simp <;> rfl
set_option maxHeartbeats 4000000 in
theorem W1_v22 (c : Dev nD) : W1 m ρ c (Proc.devRef .tc main_v22)
    = agg1 (m ((c : Thread nD τ).loc main_arg0)) (m ((c : Thread nD τ).loc main_arg1)) := by
  show StableHlo.after hostOps0 (W0 m ρ c) (Proc.devRef .tc main_v22) = _
  after_results_simp <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_v23 (c : Dev nD) : W1 m ρ c (Proc.devRef .tc main_v23) = tW1 (m ((c : Thread nD τ).loc main_arg2)) := by
  show StableHlo.after hostOps0 (W0 m ρ c) (Proc.devRef .tc main_v23) = _
  after_results_simp <;> rfl
theorem W1_v24 (c : Dev nD) : W1 m ρ c (Proc.devRef .tc main_v24) = tW1 (m ((c : Thread nD τ).loc main_arg4)) := by
  show StableHlo.after hostOps0 (W0 m ρ c) (Proc.devRef .tc main_v24) = _
  after_results_simp <;> rfl
theorem W1_v25 (c : Dev nD) : W1 m ρ c (Proc.devRef .tc main_v25) = tW2 (m ((c : Thread nD τ).loc main_arg5)) := by
  show StableHlo.after hostOps0 (W0 m ρ c) (Proc.devRef .tc main_v25) = _
  after_results_simp <;> rfl
theorem W1_v26 (c : Dev nD) : W1 m ρ c (Proc.devRef .tc main_v26) = rowB1 (m ((c : Thread nD τ).loc main_arg3)) := by
  show StableHlo.after hostOps0 (W0 m ρ c) (Proc.devRef .tc main_v26) = _
  after_results_simp <;> rfl

/-- The hidden features the layer-1 call leaves, as a function of the arguments. -/
abbrev hiddenOf (c : Dev nD) : S100000x128.Idx → EReal :=
  hidArr (agg1 (m ((c : Thread nD τ).loc main_arg0)) (m ((c : Thread nD τ).loc main_arg1))) (invCnt (m ((c : Thread nD τ).loc main_arg1)))
    (m ((c : Thread nD τ).loc main_arg0)) (tW1 (m ((c : Thread nD τ).loc main_arg2))) (tW1 (m ((c : Thread nD τ).loc main_arg4)))
    (rowB1 (m ((c : Thread nD τ).loc main_arg3)))

theorem hidden_eq (c : Dev nD) : Layer1.hidden (V1 m ρ) c = hiddenOf m c := by
  show hidArr (W1 m ρ c (Proc.devRef .tc main_v22)) (W1 m ρ c (Proc.devRef .tc main_v12)) (W1 m ρ c (Proc.devRef .tc main_arg0))
      (W1 m ρ c (Proc.devRef .tc main_v23)) (W1 m ρ c (Proc.devRef .tc main_v24)) (W1 m ρ c (Proc.devRef .tc main_v26)) = _
  rw [W1_v22, W1_v12, W1_arg0, W1_v23, W1_v24, W1_v26]

theorem projected_eq (c : Dev nD) :
    Layer1.projected (V1 m ρ) c = projArr (hiddenOf m c) (tW2 (m ((c : Thread nD τ).loc main_arg5))) := by
  show projArr (Layer1.hidden (V1 m ρ) c) (W1 m ρ c (Proc.devRef .tc main_v25)) = _
  rw [hidden_eq, W1_v25]

/-! ## The buffers at the layer-1 call's exit -/

theorem W2_v1 (c : Dev nD) : W2 m ρ c (Proc.devRef .tc main_v1) = srcVec (m ((c : Thread nD τ).loc main_arg1)) :=
  (W2_of_ne m ρ c main_v1 (by decide)).trans (W1_v1 m ρ c)
theorem W2_v3 (c : Dev nD) : W2 m ρ c (Proc.devRef .tc main_v3) = dstVec (m ((c : Thread nD τ).loc main_arg1)) :=
  (W2_of_ne m ρ c main_v3 (by decide)).trans (W1_v3 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_v12 (c : Dev nD) : W2 m ρ c (Proc.devRef .tc main_v12) = invCnt (m ((c : Thread nD τ).loc main_arg1)) :=
  (W2_arr m ρ c 1).trans (((dat0 (V1 m ρ) c).arrAt_in 1 rfl _).trans ((A_eq0 (V1 m ρ) c 1).trans (W1_v12 m ρ c)))
theorem W2_v27_0 (c : Dev nD) : W2 m ρ c (Proc.devRef .tc main_v27_0) = hiddenOf m c :=
  (W2_arr m ρ c 7).trans ((Layer1.final7 (V1 m ρ) c).trans (hidden_eq m ρ c))
theorem W2_v27_1 (c : Dev nD) : W2 m ρ c (Proc.devRef .tc main_v27_1)
    = projArr (hiddenOf m c) (tW2 (m ((c : Thread nD τ).loc main_arg5))) :=
  (W2_arr m ρ c 8).trans ((Layer1.final8 (V1 m ρ) c).trans (projected_eq m ρ c))

/-! ## The buffers at the layer-2 call's entry -/

set_option maxHeartbeats 4000000 in
theorem W3_v37 (c : Dev nD) : W3 m ρ c (Proc.devRef .tc main_v37)
    = agg2 (projArr (hiddenOf m c) (tW2 (m ((c : Thread nD τ).loc main_arg5)))) (m ((c : Thread nD τ).loc main_arg1)) := by
  show StableHlo.after hostOps1 (W2 m ρ c) (Proc.devRef .tc main_v37) = _
  after_results_simp
  rw [W2_v3, W2_v1, W2_v27_1] <;> rfl
theorem W3_v12 (c : Dev nD) : W3 m ρ c (Proc.devRef .tc main_v12) = invCnt (m ((c : Thread nD τ).loc main_arg1)) := by
  show StableHlo.after hostOps1 (W2 m ρ c) (Proc.devRef .tc main_v12) = _
  after_results_simp
  exact W2_v12 m ρ c
theorem W3_v27_0 (c : Dev nD) : W3 m ρ c (Proc.devRef .tc main_v27_0) = hiddenOf m c := by
  show StableHlo.after hostOps1 (W2 m ρ c) (Proc.devRef .tc main_v27_0) = _
  after_results_simp
  exact W2_v27_0 m ρ c
theorem W3_v38 (c : Dev nD) : W3 m ρ c (Proc.devRef .tc main_v38) = tW2 (m ((c : Thread nD τ).loc main_arg7)) := by
  show StableHlo.after hostOps1 (W2 m ρ c) (Proc.devRef .tc main_v38) = _
  after_results_simp
  rw [W2_arg7] <;> rfl
theorem W3_v39 (c : Dev nD) : W3 m ρ c (Proc.devRef .tc main_v39) = rowB2 (m ((c : Thread nD τ).loc main_arg6)) := by
  show StableHlo.after hostOps1 (W2 m ρ c) (Proc.devRef .tc main_v39) = _
  after_results_simp
  rw [W2_arg6] <;> rfl

/-! ## The result -/

/-- THE RESULT ARRAY the layer-2 call leaves is `kernelValue` of the arguments. -/
theorem result_eq (c : Dev nD) :
    (dat1 (V3 m ρ) c).arrAt 5 cfg1.N
      = kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Layer2.final5 (V3 m ρ) c]
  show outArr (W3 m ρ c (Proc.devRef .tc main_v37)) (W3 m ρ c (Proc.devRef .tc main_v12)) (W3 m ρ c (Proc.devRef .tc main_v27_0))
      (W3 m ρ c (Proc.devRef .tc main_v38)) (W3 m ρ c (Proc.devRef .tc main_v39)) = _
  rw [W3_v37, W3_v12, W3_v27_0, W3_v38, W3_v39]
  rfl

/-- THE KERNEL'S RUN: every weakly fair execution terminates, nothing faulting, with the result buffer at
    `kernelValue` of the arguments and the arguments unchanged. -/
theorem run : θ_run defs (onTc (τ := τ) (main (F := Ideal))) ⟨m, fun _ => 0, ρ⟩ (fun r => ∀ c : Dev nD,
      r.2.mem ((c.tc : Thread nD τ).loc main_v40)
        = kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1.trans (KRun.result_arr m ρ c)).trans (result_eq m ρ c), (h c).2⟩)
    (KRun.run_result m ρ)

end Cert.KernelIdeal.HostSide

end
-- ==== Proof.RefRun.lean ====
/-
  The idealized reference's run, read back stage by stage.

  The reference is 88 host operations in a row and no kernel. The library's theorem for such a list gives, of every weakly
  fair execution, termination without a fault in a state where every buffer holds what the list leaves there, computed
  operation by operation from the launch contents. Written out as one expression of the arguments, the result's contents
  repeat every shared stage at each of its uses — the second layer's row is used three times by the softmax, the hidden
  features twice by the second layer — and that expression is too large to handle in one piece. So the list is cut after
  the three shared stages (the hidden features, the second layer's row, the row shifted by its maximum), and the buffer
  contents at each cut are kept as an unknown of which only the few buffers read later are known: each stretch is then
  read back by itself, against the stage definitions `val_main_vN`, and the four readings chain to the last stage
  `val_main_v59` of the arguments.
-/
import proofs.«133953_j20117626814731_2_alg».proof.Proof.RefOps
import proofs.«133953_j20117626814731_2_alg».proof.Proof.RefRead

set_option maxRecDepth 16384

noncomputable section

namespace Cert.ReferenceIdeal.RunV

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- What a list of operations leaves is what its second part leaves of what its first part leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The called functions' buffers: contents carried to a buffer's own type and back -/

/-- Contents written to a typed reference and read back through it are the contents. -/
theorem ofBuf_toBuf {T : BufTy} (x : TRef sig T) (v : T.Contents (Elt F)) : x.ofBuf (x.toBuf v) = v := by
  unfold TRef.ofBuf TRef.toBuf
  rw [cast_cast]
  exact cast_eq _ _

theorem ofBuf_v58 (Y : (⟨S100000x40, .f32⟩ : BufTy).Contents (Elt F)) :
    (TRef.of (T := ⟨S100000x40, .f32⟩) main_v58).ofBuf Y = Y := rfl
theorem toBuf_c5 (Y : (⟨S100000x40, .f32⟩ : BufTy).Contents (Elt F)) :
    (TRef.of (T := ⟨S100000x40, .f32⟩) main_call1_v5).toBuf Y = Y := rfl
theorem ofBuf_c5 (Y : (⟨S100000x40, .f32⟩ : BufTy).Contents (Elt F)) :
    (TRef.of (T := ⟨S100000x40, .f32⟩) main_call1_v5).ofBuf Y = Y := rfl
theorem toBuf_v59 (Y : (⟨S100000x40, .f32⟩ : BufTy).Contents (Elt F)) :
    (TRef.of (T := ⟨S100000x40, .f32⟩) main_v59).toBuf Y = Y := rfl

/-- Operations 1 … 40: the edge list split and wrapped, the counts, the first layer, the rectifier. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    unary main_arg2 main_v23 ((transpose S64x128 [1, 0] · transposes_S128x64_S64x128_1_0) : (⟨S128x64, .f32⟩ : BufTy).Contents (Elt F) → (⟨S64x128, .f32⟩ : BufTy).Contents (Elt F)),
    binary main_v22 main_v23 main_v24 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 ((transpose S64x128 [1, 0] · transposes_S128x64_S64x128_1_0) : (⟨S128x64, .f32⟩ : BufTy).Contents (Elt F) → (⟨S64x128, .f32⟩ : BufTy).Contents (Elt F)),
    binary main_arg0 main_v28 main_v29 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- Operations 41 … 73: the second layer up to its row before the softmax. -/
abbrev opsB : List (HloOp τ sig (Elt F)) :=
  [ nullary main_c_4 (constantI S_ 32 0#32),
    unary main_c_4 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v42 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v43 (broadcastInDim S100000 ![] bcast_S_S100000 : (⟨S_, .f32⟩ : BufTy).Contents (Elt F) → (⟨S100000, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v46 (broadcastInDim S100000 ![] bcast_S_S100000 : (⟨S_, .f32⟩ : BufTy).Contents (Elt F) → (⟨S100000, .f32⟩ : BufTy).Contents (Elt F)),
    binary main_v45 main_v46 main_v47 (maximumf : (⟨S100000, .f32⟩ : BufTy).Contents (Elt F) → (⟨S100000, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v41 main_v49 main_v50 (Host.divf : (⟨S100000x128, .f32⟩ : BufTy).Contents (Elt F) → (⟨S100000x128, .f32⟩ : BufTy).Contents (Elt F) → (⟨S100000x128, .f32⟩ : BufTy).Contents (Elt F)),
    unary main_arg5 main_v51 ((transpose S128x40 [1, 0] · transposes_S40x128_S128x40_1_0) : (⟨S40x128, .f32⟩ : BufTy).Contents (Elt F) → (⟨S128x40, .f32⟩ : BufTy).Contents (Elt F)),
    binary main_v50 main_v51 main_v52 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v53 (broadcastInDim S1x40 ![1] bcast_S40_S1x40_1 : (⟨S40, .f32⟩ : BufTy).Contents (Elt F) → (⟨S1x40, .f32⟩ : BufTy).Contents (Elt F)),
    unary main_v53 main_v54 (broadcastInDim S100000x40 ![0, 1] bcast_S1x40_S100000x40_0_1 : (⟨S1x40, .f32⟩ : BufTy).Contents (Elt F) → (⟨S100000x40, .f32⟩ : BufTy).Contents (Elt F)),
    binary main_v52 main_v54 main_v55 (addf : (⟨S100000x40, .f32⟩ : BufTy).Contents (Elt F) → (⟨S100000x40, .f32⟩ : BufTy).Contents (Elt F) → (⟨S100000x40, .f32⟩ : BufTy).Contents (Elt F)),
    unary main_arg7 main_v56 ((transpose S128x40 [1, 0] · transposes_S40x128_S128x40_1_0) : (⟨S40x128, .f32⟩ : BufTy).Contents (Elt F) → (⟨S128x40, .f32⟩ : BufTy).Contents (Elt F)),
    binary main_v31 main_v56 main_v57 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v55 main_v57 main_v58 (addf : (⟨S100000x40, .f32⟩ : BufTy).Contents (Elt F) → (⟨S100000x40, .f32⟩ : BufTy).Contents (Elt F) → (⟨S100000x40, .f32⟩ : BufTy).Contents (Elt F)) ]

/-- Operations 74 … 81: the row maximum and the shifted row. -/
abbrev opsC : List (HloOp τ sig (Elt F)) :=
  [ TRef.nullary (TRef.of (T := ⟨S_, .f32⟩) main_call1_cst) (constant S_ .f32 0xFF800000#32),
    TRef.binary (TRef.of (T := ⟨S100000x40, .f32⟩) main_v58) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v58) (TRef.of (T := ⟨S100000x40, .f32⟩) main_call1_v4) (TRef.of (T := ⟨S100000x40, .f32⟩) main_call1_v5) subf ]

/-- Operations 82 … 88: the exponentials, their row sum, its logarithm, the result. -/
abbrev opsD : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v59) subf ]

/-- The four stretches are the whole list. -/
theorem ops_split : (ops : List (HloOp τ sig (Elt F))) = opsA ++ (opsB ++ (opsC ++ opsD)) := rfl

set_option maxHeartbeats 8000000 in
/-- THE RESULT BUFFER after the 88 operations holds the last stage of the arguments. -/
theorem result_eq (m : (ℓ : Loc nD τ sig) → Buf (Elt F) ℓ) (c : Dev nD) :
    after (ops (F := F)) (launchContents m c) (Proc.devRef .tc main_v59)
      = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, after_append, after_append, after_append]
  -- after the first stretch: the hidden features, the two edge rows, and the three arguments read later
  generalize hA : after (opsA (F := F)) (launchContents m c) = FA
  have a31 : FA (Proc.devRef .tc main_v31) = val_main_v31 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
    rw [← hA]; after_results_simp <;> rfl
  have a1 : FA (Proc.devRef .tc main_v1) = val_main_v1 (F := F) (m ((c.tc : Thread nD τ).loc main_arg1)) := by
    rw [← hA]; after_results_simp <;> rfl
  have a3 : FA (Proc.devRef .tc main_v3) = val_main_v3 (F := F) (m ((c.tc : Thread nD τ).loc main_arg1)) := by
    rw [← hA]; after_results_simp <;> rfl
  have a5 : FA (Proc.devRef .tc main_arg5) = m ((c.tc : Thread nD τ).loc main_arg5) := by
    rw [← hA]; after_results_simp <;> rfl
  have a6 : FA (Proc.devRef .tc main_arg6) = m ((c.tc : Thread nD τ).loc main_arg6) := by
    rw [← hA]; after_results_simp <;> rfl
  have a7 : FA (Proc.devRef .tc main_arg7) = m ((c.tc : Thread nD τ).loc main_arg7) := by
    rw [← hA]; after_results_simp <;> rfl
  -- after the second stretch: the second layer's row
  generalize hB : after (opsB (F := F)) FA = FB
  have b58 : FB (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    rw [← hB]; after_results_simp; rw [a31, a1, a3, a5, a6, a7] <;> rfl
  -- after the third stretch: the row shifted by its maximum
  generalize hC : after (opsC (F := F)) FB = FC
  have c5 : FC (Proc.devRef .tc main_call1_v5) = val_main_call1_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    rw [← hC]; after_results_simp; rw [b58]
    simp only [ofBuf_toBuf]
    rw [ofBuf_v58, toBuf_c5]
    unfold val_main_call1_v5 val_main_call1_v4 val_main_call1_v3 val_main_call1_v2 val_main_call1_v1 val_main_call1_v0
      val_main_call1_cst val_main_call1_cst_0
    rfl
  -- the last stretch
  after_results_simp
  rw [c5]
  simp only [ofBuf_toBuf]
  rw [ofBuf_c5, toBuf_v59]
  unfold val_main_v59 val_main_call1_v10 val_main_call1_v9 val_main_call1_v8 val_main_call1_v7 val_main_call1_v6 val_main_call1_cst_1
  rfl

set_option maxHeartbeats 8000000 in
/-- THE REFERENCE'S RUN: every weakly fair execution of @main terminates, nothing faulting, with the result buffer at
    the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RunV

end
-- ==== Proof.RefRows.lean ====
/-
  The idealized reference, read ROW BY ROW at the extended reals.

  The reference computes, for every node, the mean of its in-neighbours' rows (their sum divided by the in-degree guarded
  from below by one), combines it with the node's own row through two weight matrices and a bias, rectifies, does the
  same once more on the hidden rows, and takes the logarithm of the softmax of each result row. Its stages are named
  `val_main_vN` (one per operation); here three of them are read on a row:
  * the hidden features (`val_main_v31`): the rectified combine of the neighbour sums, the count and the node's row;
  * the second layer before the softmax (`val_main_v58`): the combine of the hidden features' neighbour sums, the count
    and the hidden row;
  * the result (`val_main_v59`): the logarithm of the softmax of that row.
  The neighbour sums, the counts and the transposed weights stay as the stages that compute them.
-/
import proofs.«133953_j20117626814731_2_alg».proof.Proof.RefRead
import proofs.«133953_j20117626814731_2_alg».proof.Proof.LibRowLayers
import proofs.«133953_j20117626814731_2_alg».proof.Proof.LibSageRows
import proofs.«133953_j20117626814731_2_alg».proof.Proof.LibSageLayer
import proofs.«133953_j20117626814731_2_alg».proof.Proof.LibLogSoftmaxRow

set_option maxRecDepth 16384

noncomputable section

open scoped BigOperators

namespace Cert.ReferenceIdeal.Rows

open Cert.ReferenceIdeal Cert.ReferenceIdeal.Gen Cert.ReferenceIdeal.ReadP Idealize.ShloMosaic Idealize.ShloMosaic.ValueIdx
open Cert.RowLayers Cert.SageRows Cert.SageLayer Cert.LogSoftmaxRow

/-- The printed contractions are plain rows-times-columns products. -/
theorem dot64 : RowsTimesCols dot_S100000x64_S64x128_S100000x128_1_0_0_1_n_n := by
  plain_product dot_S100000x64_S64x128_S100000x128_1_0_0_1_n_n
theorem dot128 : RowsTimesCols dot_S100000x128_S128x40_S100000x40_1_0_0_1_n_n := by
  plain_product dot_S100000x128_S128x40_S100000x40_1_0_0_1_n_n

variable (x0 : (⟨S100000x64, .f32⟩ : BufTy).Contents (Elt Ideal)) (x1 : (⟨S2x1600000, .i32⟩ : BufTy).Contents (Elt Ideal))
  (x2 : (⟨S128x64, .f32⟩ : BufTy).Contents (Elt Ideal)) (x3 : (⟨S128, .f32⟩ : BufTy).Contents (Elt Ideal))
  (x4 : (⟨S128x64, .f32⟩ : BufTy).Contents (Elt Ideal)) (x5 : (⟨S40x128, .f32⟩ : BufTy).Contents (Elt Ideal))
  (x6 : (⟨S40, .f32⟩ : BufTy).Contents (Elt Ideal)) (x7 : (⟨S40x128, .f32⟩ : BufTy).Contents (Elt Ideal))

/-- THE HIDDEN FEATURES on a row: the rectified combine. -/
theorem hidden_row (p : Fin 100000) :
    rowOf (val_main_v31 (F := Ideal) x0 x1 x2 x3 x4) p
      = relu (Ideal.ofBits .f32 0x00000000#32)
          (combine (Ideal.ofBits .f32 0x3F800000#32) (rowOf (val_main_v13 (F := Ideal) x0 x1) p) (val_main_v17 (F := Ideal) x1 (ix1 p))
            (rowOf x0 p) (val_main_v23 (F := Ideal) x2) (val_main_v28 (F := Ideal) x4) (fun j => x3 (ix1 j))) := by
  unfold val_main_v31 val_main_call0_v0 val_main_call0_cst
  rw [rowOf_maximumf_const]
  refine congrArg (relu _) ?_
  unfold val_main_v30 val_main_v29 val_main_v27 val_main_v26 val_main_v25 val_main_v24 val_main_v22 val_main_v21 val_main_v20
    val_main_v19 val_main_v18 val_main_cst_3
  exact rowOf_combine_host (s0 := S_) dot64 none _ _ _ _ _ _ _ ![] bcast_S_S100000 bcast_S100000_S100000x1_0 bcast_S100000x1_S100000x64_0_1
    bcast_S128_S1x128_1 bcast_S1x128_S100000x128_0_1 p

/-- THE SECOND LAYER before the softmax, on a row: the combine of the hidden features' neighbour sums. -/
theorem pre2_row (p : Fin 100000) :
    rowOf (val_main_v58 (F := Ideal) x0 x1 x2 x3 x4 x5 x6 x7) p
      = combine (Ideal.ofBits .f32 0x3F800000#32) (rowOf (val_main_v41 (F := Ideal) x0 x1 x2 x3 x4) p) (val_main_v45 (F := Ideal) x1 (ix1 p))
          (rowOf (val_main_v31 (F := Ideal) x0 x1 x2 x3 x4) p) (val_main_v51 (F := Ideal) x5) (val_main_v56 (F := Ideal) x7)
          (fun j => x6 (ix1 j)) := by
  unfold val_main_v58 val_main_v57 val_main_v55 val_main_v54 val_main_v53 val_main_v52 val_main_v50 val_main_v49 val_main_v48
    val_main_v47 val_main_v46 val_main_cst_9
  exact rowOf_combine_host (s0 := S_) dot128 none _ _ _ _ _ _ _ ![] bcast_S_S100000 bcast_S100000_S100000x1_0 bcast_S100000x1_S100000x128_0_1
    bcast_S40_S1x40_1 bcast_S1x40_S100000x40_0_1 p

/-- THE RESULT at an entry: the logarithm of the softmax of the second layer's row. -/
theorem result_apply (p : Fin 100000) (j : Fin 40) :
    val_main_v59 (F := Ideal) x0 x1 x2 x3 x4 x5 x6 x7 (ix2 p j)
      = lsmRow (rowOf (val_main_v58 (F := Ideal) x0 x1 x2 x3 x4 x5 x6 x7) p) j := by
  unfold val_main_v59 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_call1_cst_0
    val_main_call1_cst_1
  generalize val_main_v58 (F := Ideal) x0 x1 x2 x3 x4 x5 x6 x7 = y
  exact host_apply (s0 := S_) y reducesTo_S100000x40_S100000_d1 (by decide) h_S_ ![] bcast_S_S100000 bcast_S100000_S100000x1_0
    bcast_S100000x1_S100000x40_0_1 p j

end Cert.ReferenceIdeal.Rows

end
-- ==== Proof.LibMeanExchange.lean ====
/-
  The arithmetic of a two-layer mean-aggregating graph network over the extended reals, with no program in sight.

  Two facts carry the comparison of the two programs.
  * A mean taken by dividing a sum by `max d 1` is the same number as the sum times the reciprocal `1 / max d 1`:
    the divisor is at least one, hence not zero, and off zero a quotient IS the product with the inverse — for every
    extended real, finite or not.
  * Projecting and then aggregating is aggregating and then projecting: for feature rows `h e` (one per edge `e` of a
    finite set `S`), a column `w` of a weight matrix and a scale `r`,
        (∑ e ∈ S, ∑ k, h e k · w k) · r  =  ∑ k, ((∑ e ∈ S, h e k) · r) · w k.
    This exchanges two finite sums and moves two factors across them, which is sound when every entry is a real
    number (on the extended reals `∞ − ∞` would break distributivity): it is proved over ℝ and carried back.
  * The logarithm of a softmax on a row `y`:  `j ↦ (y j − M) − log (∑ k, exp (y k − M))`  with `M` the supremum of the row.
  The predicate `IsReal` says that an extended real is a real number; it is closed under the operations the network
  uses (sums, products, maxima, the inverse), which is how finiteness of the inputs reaches the hidden features.
-/
import Idealize.ShloMosaic.PureOps.Ideal
import Idealize.ShloMosaic.PureOps.Ideal.Laws

noncomputable section

open scoped BigOperators

namespace Cert.SageMath

open Idealize.ShloMosaic

/-! ## Extended reals that are real numbers -/

/-- `x` is (the image of) a real number: neither infinity. -/
def IsReal (x : EReal) : Prop := ∃ r : ℝ, x = (r : EReal)

theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- The inverse of ANY extended real is a real number: an infinity inverts to zero. -/
theorem isReal_inv (y : EReal) : IsReal y⁻¹ := by
  induction y using EReal.rec with
  | bot => exact ⟨0, EReal.inv_bot⟩
  | top => exact ⟨0, EReal.inv_top⟩
  | coe r => exact ⟨r⁻¹, (EReal.coe_inv r).symm⟩

theorem IsReal.sum {ι : Type*} (s : Finset ι) (f : ι → EReal) (hf : ∀ i ∈ s, IsReal (f i)) : IsReal (∑ i ∈ s, f i) := by
  classical
  induction s using Finset.induction_on with
  | empty => simpa using IsReal.zero
  | insert j s hj ih =>
    rw [Finset.sum_insert hj]
    exact (hf j (Finset.mem_insert_self j s)).add (ih fun i hi => hf i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

/-- The zero word of f32 is a real number. -/
theorem isReal_zeroWord : IsReal (Ideal.ofBits .f32 0x00000000#32) := by
  rw [Ideal.ofBits_zero_f32]; exact IsReal.zero

/-! ## The mean: dividing by `max d 1` is multiplying by its reciprocal -/

/-- A count guarded from below by one is not zero. -/
theorem max_one_ne_zero (d : EReal) : Max.max d 1 ≠ 0 :=
  (lt_of_lt_of_le zero_lt_one (le_max_right d 1)).ne'

/-- Off a zero divisor the quotient is the product with the inverse. -/
theorem div_of_ne_zero (a : EReal) {y : EReal} (hy : y ≠ 0) : Ideal.div a y = a * y⁻¹ := by
  unfold Ideal.div; rw [if_neg hy]

/-- THE MEAN, TWO WAYS: `a / max d 1 = a · (1 / max d 1)`, for all extended reals `a` and `d`. -/
theorem div_eq_mul_recip (a d : EReal) : Ideal.div a (Max.max d 1) = a * Ideal.div 1 (Max.max d 1) := by
  rw [div_of_ne_zero a (max_one_ne_zero d), div_of_ne_zero 1 (max_one_ne_zero d), one_mul]

/-- The reciprocal of a guarded count is a real number, whatever the count. -/
theorem isReal_recip (d : EReal) : IsReal (Ideal.div 1 (Max.max d 1)) := by
  rw [div_of_ne_zero 1 (max_one_ne_zero d), one_mul]; exact isReal_inv _

/-- A real sum divided by a guarded count is a real number. -/
theorem isReal_mean {a : EReal} (ha : IsReal a) (d : EReal) : IsReal (Ideal.div a (Max.max d 1)) := by
  rw [div_eq_mul_recip]; exact ha.mul (isReal_recip d)

/-! ## Projecting then aggregating is aggregating then projecting -/

/-- Over the reals: exchange the two sums and move the factors. -/
theorem proj_commute_real {ι κ : Type*} [Fintype κ] (S : Finset ι) (h : ι → κ → ℝ) (w : κ → ℝ) (r : ℝ) :
    (∑ e ∈ S, ∑ k, h e k * w k) * r = ∑ k, ((∑ e ∈ S, h e k) * r) * w k := by
  rw [Finset.sum_comm, Finset.sum_mul]
  refine Finset.sum_congr rfl fun k _ => ?_
  rw [← Finset.sum_mul]; ring

/-- THE EXCHANGE on extended reals that are real numbers. -/
theorem proj_commute {ι κ : Type*} [Fintype κ] (S : Finset ι) (h : ι → κ → EReal) (w : κ → EReal) (r : EReal)
    (hh : ∀ e k, IsReal (h e k)) (hw : ∀ k, IsReal (w k)) (hr : IsReal r) :
    (∑ e ∈ S, ∑ k, h e k * w k) * r = ∑ k, ((∑ e ∈ S, h e k) * r) * w k := by
  choose h' hh' using hh
  choose w' hw' using hw
  obtain ⟨r', rfl⟩ := hr
  have key := congrArg (fun x : ℝ => (x : EReal)) (proj_commute_real S h' w' r')
  simp only [EReal.coe_mul, coe_sum] at key
  simp only [hh', hw']
  exact key

end Cert.SageMath

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.Bridge.lean ====
/-
  The two programs compute one function of the arguments, when the float arguments are real numbers.

  Write, for a node `n`: `S n` for the set of edges whose target is `n` (an edge whose target number is not a node lands
  nowhere), `g e` for the node edge `e` reads (its source number, a negative one wrapped once, then clamped into the node
  range), `d n` for the number of edges in `S n` and `r n = 1 / max (d n) 1`. Both programs compute the same neighbour
  sums `∑ e ∈ S n, x[g e, ·]` and the same counts, by the same operations.
  * LAYER 1. The reference divides the neighbour sums by `max (d n) 1`, the kernel multiplies them by `r n`: the same
    number, for every extended real. The order of the three summands differs; addition is commutative. So the two hidden
    feature arrays are equal — no finiteness needed.
  * LAYER 2. The reference sums the hidden rows of the in-neighbours, divides, and projects through the weight matrix; the
    kernel projects every hidden row first, sums the projected rows of the in-neighbours, and multiplies by `r n`. These
    agree by exchanging the two finite sums and moving the factors, which needs the hidden features, the weights and
    `r n` to be real numbers: the hidden features are, being built from real inputs by sums, products, the reciprocal
    and a maximum with zero.
  * The logarithm of the softmax is the same row function on both sides.
-/
import proofs.«133953_j20117626814731_2_alg».proof.Proof.KernelHost
import proofs.«133953_j20117626814731_2_alg».proof.Proof.RefRows
import proofs.«133953_j20117626814731_2_alg».proof.Proof.LibMeanExchange
import proofs.«133953_j20117626814731_2_alg».proof.Proof.LibRowGatherScatter
import proofs.«133953_j20117626814731_2_alg».proof.Proof.LibColumnCast

set_option maxRecDepth 16384

noncomputable section

open scoped BigOperators

namespace Cert.Bridge

open Idealize.ShloMosaic Idealize.ShloMosaic.ValueIdx
open Cert.RowLayers Cert.SageRows Cert.SageLayer Cert.LogSoftmaxRow Cert.SageMath
open Cert.KernelIdeal.Rows (hidArr projArr outArr out2)
open Cert.KernelIdeal.HostSide (Edges srcVec dstVec srcCol dstCol cnt invCnt agg1 agg2 tW1 tW2 rowB1 rowB2 kernelValue)
open Cert.ReferenceIdeal.ReadP

/-! ## Small readings -/

/-- The f32 pattern of 1.0 denotes the real number one. -/
theorem ofBits_one : Ideal.ofBits .f32 0x3F800000#32 = 1 := by simp [Ideal.ofBits, Ideal.ieee, -EReal.coe_mul]; norm_num

/-- The edges whose target is node `n`. -/
def inEdges (ei : Edges) (n : Fin 100000) : Finset (Fin 1600000) :=
  Finset.univ.filter fun e : Fin 1600000 => ((dstCol ei : IVec ⟨2, ![1600000, 1]⟩ 32) (ix2 e (0 : Fin 1))).toInt = (n.val : ℤ)

/-- The node edge `e` reads. -/
def srcOf (ei : Edges) (e : Fin 1600000) : Fin 100000 :=
  Idealize.ShloMosaic.RowOps.gatherRow (N := 100000) (E := 1600000) (w := 32) (by decide) (srcCol ei) e

/-- A rank-0 constant broadcast to any shape reads, everywhere, the constant's value. -/
theorem bcast_scalar_apply {t : Shape} (h : (⟨0, ![]⟩ : Shape).BroadcastsInDim t ![]) (w : BitVec 32) (j : t.Idx) :
    broadcastInDim t ![] h (constant (F := Ideal) ⟨0, ![]⟩ .f32 w) j = Ideal.ofBits .f32 w :=
  broadcastInDim_apply ![] h _ j ix0 (fun a => a.elim0)

/-- A quotient of two vectors whose numerator is one everywhere and whose denominator is a maximum with one. -/
theorem recip_core {N : ℕ} (c A B : (⟨1, ![N]⟩ : Shape).Idx → EReal) (p : Fin N) (hA : A (ix1 p) = 1) (hB : B (ix1 p) = 1) :
    Host.divf (F := Ideal) (φ := .f32) A (maximumf (F := Ideal) (φ := .f32) c B) (ix1 p) = Ideal.div 1 (Max.max (c (ix1 p)) 1) := by
  show Ideal.div (A (ix1 p)) (Max.max (c (ix1 p)) (B (ix1 p))) = _
  rw [hA, hB]

/-- The reciprocal column at node `p`. -/
theorem invCnt_apply (ei : Edges) (p : Fin 100000) :
    invCnt ei (ix2 p (0 : Fin 1)) = Ideal.div 1 (Max.max (cnt ei (ix1 p)) 1) := by
  unfold invCnt
  rw [Cert.ColumnCast.shapeCast_a_a1_apply]
  exact recip_core (cnt ei) _ _ p ((bcast_scalar_apply _ _ _).trans ofBits_one) ((bcast_scalar_apply _ _ _).trans ofBits_one)

/-- A bias given a unit leading axis reads, at `(0, j)`, its entry `j`. -/
theorem rowB1_apply (b : FVec Ideal Cert.KernelIdeal.S128 .f32) (j : Fin 128) : rowB1 b (ix2 (0 : Fin 1) j) = b (ix1 j) := by
  unfold rowB1
  exact shapeCast_apply b _ _ _ (by rw [Shape.rowMajor_val_one, Shape.rowMajor_val_two]; show j.val = 0 * 128 + j.val; omega)
theorem rowB2_apply (b : FVec Ideal Cert.KernelIdeal.S40 .f32) (j : Fin 40) : rowB2 b (ix2 (0 : Fin 1) j) = b (ix1 j) := by
  unfold rowB2
  exact shapeCast_apply b _ _ _ (by rw [Shape.rowMajor_val_one, Shape.rowMajor_val_two]; show j.val = 0 * 40 + j.val; omega)

/-- The kernel's summed rows at `(n, q)`, for the 64-wide features. -/
theorem agg1_apply (x : FVec Ideal Cert.KernelIdeal.S100000x64 .f32) (ei : Edges) (n : Fin 100000) (q : Fin 64) :
    agg1 x ei (ix2 n q) = ∑ e ∈ inEdges ei n, x (ix2 (srcOf ei e) q) := by
  unfold agg1
  refine (Idealize.ShloMosaic.RowOps.scatterAdd_rows_apply (φ := .f32)
    Cert.KernelIdeal.Facts₀.scatter_S100000x64_S1600000x1_S1600000x64_1_0_0_1_wf _ (dstCol ei) _ n q).trans ?_
  refine (congrArg₂ (· + ·) ((bcast_scalar_apply _ _ _).trans Ideal.ofBits_zero_f32) (Finset.sum_congr rfl fun e _ => ?_)).trans (zero_add _)
  exact Idealize.ShloMosaic.RowOps.gather_rows_apply (by decide)
    Cert.KernelIdeal.Facts₀.gather_S100000x64_S1600000x1_S1600000x64_1_0_n_n_0_1_164_wf x (srcCol ei) e q

/-- The kernel's summed PROJECTED rows at `(n, q)`. -/
theorem agg2_apply (P : FVec Ideal Cert.KernelIdeal.S100000x40 .f32) (ei : Edges) (n : Fin 100000) (q : Fin 40) :
    agg2 P ei (ix2 n q) = ∑ e ∈ inEdges ei n, P (ix2 (srcOf ei e) q) := by
  unfold agg2
  refine (Idealize.ShloMosaic.RowOps.scatterAdd_rows_apply (φ := .f32)
    Cert.KernelIdeal.Facts₀.scatter_S100000x40_S1600000x1_S1600000x40_1_0_0_1_wf _ (dstCol ei) _ n q).trans ?_
  refine (congrArg₂ (· + ·) ((bcast_scalar_apply _ _ _).trans Ideal.ofBits_zero_f32) (Finset.sum_congr rfl fun e _ => ?_)).trans (zero_add _)
  exact Idealize.ShloMosaic.RowOps.gather_rows_apply (by decide)
    Cert.KernelIdeal.Facts₀.gather_S100000x40_S1600000x1_S1600000x40_1_0_n_n_0_1_140_wf P (srcCol ei) e q

variable (x : FVec Ideal Cert.KernelIdeal.S100000x64 .f32) (ei : Edges) (w1l : FVec Ideal Cert.KernelIdeal.S128x64 .f32)
  (b1 : FVec Ideal Cert.KernelIdeal.S128 .f32) (w1r : FVec Ideal Cert.KernelIdeal.S128x64 .f32)
  (w2l : FVec Ideal Cert.KernelIdeal.S40x128 .f32) (b2 : FVec Ideal Cert.KernelIdeal.S40 .f32)
  (w2r : FVec Ideal Cert.KernelIdeal.S40x128 .f32)

/-! ## The reference's stages are the kernel's host stages -/

theorem ref_src : val_main_v37 (F := Ideal) ei = srcCol ei := rfl
theorem ref_dst : val_main_v40 (F := Ideal) ei = dstCol ei := rfl
theorem ref_agg1 : val_main_v13 (F := Ideal) x ei = agg1 x ei := rfl
theorem ref_cnt1 : val_main_v17 (F := Ideal) ei = cnt ei := rfl
theorem ref_cnt2 : val_main_v45 (F := Ideal) ei = cnt ei := rfl
theorem ref_w1l : val_main_v23 (F := Ideal) w1l = tW1 w1l := rfl
theorem ref_w1r : val_main_v28 (F := Ideal) w1r = tW1 w1r := rfl
theorem ref_w2l : val_main_v51 (F := Ideal) w2l = tW2 w2l := rfl
theorem ref_w2r : val_main_v56 (F := Ideal) w2r = tW2 w2r := rfl

/-- The reference's summed hidden rows at `(n, k)`. -/
theorem ref_agg2_apply (n : Fin 100000) (k : Fin 128) :
    val_main_v41 (F := Ideal) x ei w1l b1 w1r (ix2 n k)
      = ∑ e ∈ inEdges ei n, val_main_v31 (F := Ideal) x ei w1l b1 w1r (ix2 (srcOf ei e) k) := by
  unfold val_main_v41 val_main_v39 val_main_cst_6 val_main_v38
  rw [ref_src, ref_dst]
  refine (Idealize.ShloMosaic.RowOps.scatterAdd_rows_apply (φ := .f32)
    Cert.ReferenceIdeal.Facts₀.scatter_S100000x128_S1600000x1_S1600000x128_1_0_0_1_wf _ (dstCol ei) _ n k).trans ?_
  refine (congrArg₂ (· + ·) ((bcast_scalar_apply _ _ _).trans Ideal.ofBits_zero_f32) (Finset.sum_congr rfl fun e _ => ?_)).trans (zero_add _)
  exact Idealize.ShloMosaic.RowOps.gather_rows_apply (by decide)
    Cert.ReferenceIdeal.Facts₀.gather_S100000x128_S1600000x1_S1600000x128_1_0_n_n_0_1_1128_wf _ (srcCol ei) e k

/-! ## Layer 1: the two hidden feature arrays are equal -/

/-- Scaling the neighbour sums by the reciprocal and combining is the reference's combine with the division inside:
    `a k · (1 / max d 1) = a k / max d 1`, term by term. -/
theorem conv_eq_combine {K J : ℕ} (a : Fin K → EReal) (d : EReal) (h : Fin K → EReal)
    (wl wr : (⟨2, ![K, J]⟩ : Shape).Idx → EReal) (b b' : Fin J → EReal) (hb : ∀ j, b j = b' j) :
    conv (fun k => a k * Ideal.div 1 (Max.max d 1)) h wl wr b = combine 1 a d h wl wr b' := by
  funext j
  show (∑ k : Fin K, (a k * Ideal.div 1 (Max.max d 1)) * wl (ix2 k j)) + (∑ k : Fin K, h k * wr (ix2 k j)) + b j
    = (∑ k : Fin K, Ideal.div (a k) (Max.max d 1) * wl (ix2 k j)) + (∑ k : Fin K, h k * wr (ix2 k j)) + b' j
  rw [hb j]
  refine congrArg (· + b' j) (congrArg (· + ∑ k : Fin K, h k * wr (ix2 k j)) (Finset.sum_congr rfl fun k _ => ?_))
  rw [div_eq_mul_recip (a k) d]

/-- The kernel's hidden features. -/
abbrev hidK : (⟨2, ![100000, 128]⟩ : Shape).Idx → EReal :=
  hidArr (agg1 x ei) (invCnt ei) x (tW1 w1l) (tW1 w1r) (rowB1 b1)

/-- Row `p` of the kernel's hidden features. -/
theorem hidK_row (p : Fin 100000) :
    rowOf (hidK x ei w1l b1 w1r) p = relu (Ideal.ofBits .f32 0x00000000#32)
      (conv (fun k => agg1 x ei (ix2 p k) * Ideal.div 1 (Max.max (cnt ei (ix1 p)) 1)) (rowOf x p) (tW1 w1l) (tW1 w1r) (rowOf (rowB1 b1) 0)) := by
  rw [← invCnt_apply]
  rfl

theorem hidden_eq : hidK x ei w1l b1 w1r = val_main_v31 (F := Ideal) x ei w1l b1 w1r := by
  refine ext_rows fun p => ?_
  rw [Cert.ReferenceIdeal.Rows.hidden_row, ref_agg1, ref_cnt1, ref_w1l, ref_w1r, hidK_row, ofBits_one]
  exact congrArg (relu _) (conv_eq_combine _ _ _ _ _ _ _ fun j => rowB1_apply b1 j)

/-! ## The hidden features are real numbers -/

variable (hx : ∀ i, IsReal (x i)) (hw1l : ∀ i, IsReal (w1l i)) (hb1 : ∀ i, IsReal (b1 i)) (hw1r : ∀ i, IsReal (w1r i))
  (hw2l : ∀ i, IsReal (w2l i))

include hx in
theorem agg1_isReal (n : Fin 100000) (q : Fin 64) : IsReal (agg1 x ei (ix2 n q)) := by
  rw [agg1_apply]; exact IsReal.sum _ _ fun e _ => hx _

theorem tW1_isReal (w : FVec Ideal Cert.KernelIdeal.S128x64 .f32) (hw : ∀ i, IsReal (w i)) (i) : IsReal (tW1 w i) := by
  unfold tW1 transpose; exact hw _
theorem tW2_isReal (w : FVec Ideal Cert.KernelIdeal.S40x128 .f32) (hw : ∀ i, IsReal (w i)) (i) : IsReal (tW2 w i) := by
  unfold tW2 transpose; exact hw _

include hx hw1l hb1 hw1r in
theorem hidK_isReal (p : Fin 100000) (k : Fin 128) : IsReal (hidK x ei w1l b1 w1r (ix2 p k)) := by
  have e : hidK x ei w1l b1 w1r (ix2 p k) = rowOf (hidK x ei w1l b1 w1r) p k := rfl
  rw [e, hidK_row]
  show IsReal (Max.max ((∑ a : Fin 64, (agg1 x ei (ix2 p a) * Ideal.div 1 (Max.max (cnt ei (ix1 p)) 1)) * tW1 w1l (ix2 a k))
      + (∑ a : Fin 64, rowOf x p a * tW1 w1r (ix2 a k)) + rowOf (rowB1 b1) 0 k) (Ideal.ofBits .f32 0x00000000#32))
  refine IsReal.max (IsReal.add (IsReal.add (IsReal.sum _ _ fun a _ => ?_) (IsReal.sum _ _ fun a _ => ?_)) ?_) isReal_zeroWord
  · exact ((agg1_isReal x ei hx p a).mul (isReal_recip _)).mul (tW1_isReal w1l hw1l _)
  · exact (hx _).mul (tW1_isReal w1r hw1r _)
  · rw [rowOf_apply, rowB1_apply]; exact hb1 _

/-! ## The two results are equal -/

/-- Layer 2's row in the kernel's order of summands is the reference's combine, once the scaled summed projections are
    known to be the projected scaled sums (`hex`). -/
theorem out2_eq_combine {K J : ℕ} (h : Fin K → EReal) (wr wl : (⟨2, ![K, J]⟩ : Shape).Idx → EReal) (a' : Fin J → EReal)
    (a : Fin K → EReal) (d : EReal) (b b' : Fin J → EReal) (hb : ∀ j, b j = b' j)
    (hex : ∀ j, a' j * Ideal.div 1 (Max.max d 1) = ∑ k : Fin K, Ideal.div (a k) (Max.max d 1) * wl (ix2 k j)) :
    out2 h wr a' (Ideal.div 1 (Max.max d 1)) b = combine 1 a d h wl wr b' := by
  funext j
  show ((∑ k : Fin K, h k * wr (ix2 k j)) + a' j * Ideal.div 1 (Max.max d 1)) + b j
    = (∑ k : Fin K, Ideal.div (a k) (Max.max d 1) * wl (ix2 k j)) + (∑ k : Fin K, h k * wr (ix2 k j)) + b' j
  rw [hex j, hb j, add_comm (∑ k : Fin K, h k * wr (ix2 k j))]

/-- The kernel's result at an entry: the logarithm of the softmax of layer 2's row. -/
theorem kernelValue_apply (p : Fin 100000) (q : Fin 40) :
    kernelValue x ei w1l b1 w1r w2l b2 w2r (ix2 p q)
      = lsmRow (out2 (rowOf (hidK x ei w1l b1 w1r) p) (tW2 w2r) (rowOf (agg2 (projArr (hidK x ei w1l b1 w1r) (tW2 w2l)) ei) p)
          (Ideal.div 1 (Max.max (cnt ei (ix1 p)) 1)) (rowOf (rowB2 b2) 0)) q := by
  rw [← invCnt_apply]
  rfl

include hx hw1l hb1 hw1r hw2l in
/-- THE EXCHANGE at node `p`, column `j`: the summed projected rows, scaled, are the scaled summed rows, projected. -/
theorem exchange (p : Fin 100000) (j : Fin 40) :
    rowOf (agg2 (projArr (hidK x ei w1l b1 w1r) (tW2 w2l)) ei) p j * Ideal.div 1 (Max.max (cnt ei (ix1 p)) 1)
      = ∑ k : Fin 128, Ideal.div (rowOf (val_main_v41 (F := Ideal) x ei w1l b1 w1r) p k) (Max.max (cnt ei (ix1 p)) 1) * tW2 w2l (ix2 k j) := by
  have e1 : ∀ k : Fin 128, Ideal.div (rowOf (val_main_v41 (F := Ideal) x ei w1l b1 w1r) p k) (Max.max (cnt ei (ix1 p)) 1)
      = (∑ e ∈ inEdges ei p, hidK x ei w1l b1 w1r (ix2 (srcOf ei e) k)) * Ideal.div 1 (Max.max (cnt ei (ix1 p)) 1) := fun k => by
    rw [div_eq_mul_recip (rowOf (val_main_v41 (F := Ideal) x ei w1l b1 w1r) p k) (cnt ei (ix1 p)), rowOf_apply, ref_agg2_apply, ← hidden_eq x ei w1l b1 w1r]
  simp only [e1]
  rw [rowOf_apply, agg2_apply]
  exact proj_commute (inEdges ei p) (fun e k => hidK x ei w1l b1 w1r (ix2 (srcOf ei e) k)) (fun k => tW2 w2l (ix2 k j)) _
    (fun e k => hidK_isReal x ei w1l b1 w1r hx hw1l hb1 hw1r _ _) (fun k => tW2_isReal w2l hw2l _) (isReal_recip _)

include hx hw1l hb1 hw1r hw2l in
/-- THE VALUE BRIDGE: the kernel's result and the reference's last stage are one array. -/
theorem value_eq : kernelValue x ei w1l b1 w1r w2l b2 w2r = val_main_v59 (F := Ideal) x ei w1l b1 w1r w2l b2 w2r := by
  funext i
  obtain ⟨p, q, rfl⟩ : ∃ (p : Fin 100000) (q : Fin 40), i = ix2 p q := ⟨i 0, i 1, eq_ix2 i⟩
  rw [Cert.ReferenceIdeal.Rows.result_apply, Cert.ReferenceIdeal.Rows.pre2_row, ref_cnt2, ref_w2l, ref_w2r, ofBits_one,
    ← hidden_eq x ei w1l b1 w1r, kernelValue_apply]
  refine congrFun (congrArg lsmRow ?_) q
  exact out2_eq_combine _ _ _ _ _ _ _ _ (fun j => rowB2_apply b2 j)
    (fun j => exchange x ei w1l b1 w1r w2l hx hw1l hb1 hw1r hw2l p j)

end Cert.Bridge

end
-- ==== Proof.Finite.lean ====
/-
  What the precondition gives: the float arguments the proof needs are arrays of real numbers.

  The precondition is printed as a program: for each float argument, every entry's absolute value is compared with the
  f32 pattern of +∞, the comparisons are folded by "and" over the whole array (jnp.all), and the seven results are joined
  by "and". That the outcome is the word 1 says each fold is 1, hence every comparison is 1, hence |x| < +∞ at every entry,
  hence the entry is neither infinity: a real number. Only the node features and the first five parameter arrays are
  needed (the exchange of projection and aggregation uses them; the second bias and the root weights of the second
  layer enter both programs the same way, finite or not).
-/
import proofs.«133953_j20117626814731_2_alg».proof.Pre_finite_inputs
import proofs.«133953_j20117626814731_2_alg».proof.Proof.Gen.Pre_finite_inputs
import proofs.«133953_j20117626814731_2_alg».proof.Proof.LibMeanExchange
import Idealize.ShloMosaic.PureOps.Ideal
import Idealize.ShloMosaic.Lib.ReduceAll
import Idealize.ShloMosaic.Lib.ValueIdx

set_option maxRecDepth 16384

noncomputable section

namespace Cert.Finite

open Idealize.ShloMosaic Cert.SageMath

/-- A shape of rank zero has one index. -/
instance : Subsingleton (⟨0, ![]⟩ : Shape).Idx := ⟨fun a b => funext fun d => d.elim0⟩

/-- The f32 pattern `0x7F800000` denotes +∞. -/
theorem ofBits_posInf : Ideal.ofBits .f32 0x7F800000#32 = ⊤ := by simp [Ideal.ofBits, Ideal.ieee]

/-- An extended real whose absolute value compares below +∞ is a real number. -/
theorem isReal_of_abs_lt (x : EReal)
    (h : Ideal.cmp .olt (Max.max x (-x)) (Ideal.ofBits .f32 0x7F800000#32) = 1#1) : IsReal x := by
  rw [ofBits_posInf] at h
  have h' : BitVec.ofBool (decide (Max.max x (-x) < ⊤)) = 1#1 := h
  have hlt : Max.max x (-x) < ⊤ := by
    by_contra hc
    rw [decide_eq_false hc] at h'
    exact absurd h' (by decide)
  induction x using EReal.rec with
  | bot => simp at hlt
  | top => simp at hlt
  | coe r => exact ⟨r, rfl⟩

open Cert.Pre_finite_inputs in
/-- THE PRECONDITION READ BACK: the features and the first five parameter arrays hold real numbers. -/
theorem finite_of_pre [Cert.Pre_finite_inputs.Facts]
    (x0 : FVec Ideal S100000x64 .f32) (x1 : IVec S2x1600000 32) (x2 : FVec Ideal S128x64 .f32) (x3 : FVec Ideal S128 .f32)
    (x4 : FVec Ideal S128x64 .f32) (x5 : FVec Ideal S40x128 .f32) (x6 : FVec Ideal S40 .f32) (x7 : FVec Ideal S40x128 .f32)
    (h : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ValueIdx.ix0
  dsimp only [Cert.Pre_finite_inputs.fn, Cert.Pre_finite_inputs.fn_part1] at h0
  obtain ⟨h6, -⟩ := IntOp.andi_eq_one.1 h0
  obtain ⟨h5, -⟩ := IntOp.andi_eq_one.1 h6
  obtain ⟨h4, r5⟩ := IntOp.andi_eq_one.1 h5
  obtain ⟨h3, r4⟩ := IntOp.andi_eq_one.1 h4
  obtain ⟨h2, r3⟩ := IntOp.andi_eq_one.1 h3
  obtain ⟨r0, r2⟩ := IntOp.andi_eq_one.1 h2
  exact ⟨fun i => isReal_of_abs_lt _ (Host.reduce_andi_all _ _ _ _ _ r0 i),
    fun i => isReal_of_abs_lt _ (Host.reduce_andi_all _ _ _ _ _ r2 i),
    fun i => isReal_of_abs_lt _ (Host.reduce_andi_all _ _ _ _ _ r3 i),
    fun i => isReal_of_abs_lt _ (Host.reduce_andi_all _ _ _ _ _ r4 i),
    fun i => isReal_of_abs_lt _ (Host.reduce_andi_all _ _ _ _ _ r5 i)⟩

end Cert.Finite

end
-- ==== Proof.lean ====
/-
  A two-layer mean-aggregating graph convolution with a log-softmax head: the kernel against its reference.

  For every node both programs sum the feature rows of its in-neighbours (a gather of rows along the edge list and a
  scatter-add at the targets), turn the sum into a mean with the in-degree guarded from below by one, combine the mean
  and the node's own row through two weight matrices and a bias, rectify, repeat on the hidden rows, and take the
  logarithm of the softmax of each result row. They differ in three places.
  * The kernel multiplies by the reciprocal `1 / max d 1` where the reference divides by `max d 1`: the same number for
    every extended real, since the divisor is never zero.
  * In the second layer the kernel projects every hidden row through the weight matrix BEFORE summing over the
    in-neighbours, the reference after: equal by exchanging two finite sums, which is where the precondition (the float
    inputs are real numbers) is used — the hidden features are then real numbers too.
  * The order of three summands; addition of extended reals is commutative and associative.
  The kernel's value is read off its two calls block by block (each body is a row-local function of its blocks, twenty
  blocks of 5000 rows cover the 100000 nodes), the host operations around the calls are read back to functions of the
  arguments, and the reference's value is read stage by stage; the two are one array (`Cert.Bridge.value_eq`).
  The frames of the two kernel programs are the generated ones; the reference's frame is its run with the result dropped.
-/
import proofs.«133953_j20117626814731_2_alg».proof.Defs
import proofs.«133953_j20117626814731_2_alg».proof.Proof.Gen.Kernel
import proofs.«133953_j20117626814731_2_alg».proof.Proof.Gen.Kernel.Skeleton
import proofs.«133953_j20117626814731_2_alg».proof.Proof.Gen.Kernel.Launch
import proofs.«133953_j20117626814731_2_alg».proof.Proof.Gen.Kernel.Points
import proofs.«133953_j20117626814731_2_alg».proof.Proof.Gen.Kernel.Frame
import proofs.«133953_j20117626814731_2_alg».proof.Proof.Gen.KernelIdeal
import proofs.«133953_j20117626814731_2_alg».proof.Proof.Gen.KernelIdeal.Skeleton
import proofs.«133953_j20117626814731_2_alg».proof.Proof.Gen.KernelIdeal.Launch
import proofs.«133953_j20117626814731_2_alg».proof.Proof.Gen.KernelIdeal.Points
import proofs.«133953_j20117626814731_2_alg».proof.Proof.Gen.KernelIdeal.Frame
import proofs.«133953_j20117626814731_2_alg».proof.Proof.Gen.ReferenceIdeal
import proofs.«133953_j20117626814731_2_alg».proof.Proof.Gen.Pre_finite_inputs
import proofs.«133953_j20117626814731_2_alg».proof.Proof.KernelHost
import proofs.«133953_j20117626814731_2_alg».proof.Proof.RefRun
import proofs.«133953_j20117626814731_2_alg».proof.Proof.Bridge
import proofs.«133953_j20117626814731_2_alg».proof.Proof.Finite
import Idealize.ShloMosaic.Adequacy
import Idealize.ShloMosaic.Init

noncomputable section

namespace Cert.Proof

open Idealize.ShloMosaic Idealize.SL.Sem

/-- The two idealized programs, run from memories agreeing on the arguments, end with the same result array: the
    kernel at `kernelValue` of its arguments, the reference at its last stage of the same arguments, and the two are
    equal when the float arguments are real numbers, which the precondition says. -/
theorem algebraic : Cert.algebraic_KernelIdeal_ReferenceIdeal := by
  intro m ρ m' ρ' hpre hagree
  refine ⟨fun c => Cert.KernelIdeal.HostSide.kernelValue (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.HostSide.run m ρ, ?_⟩
  refine (θ_run Cert.ReferenceIdeal.defs _ _).mono (fun _ h c => ⟨(h c).1.trans ?_, (h c).2⟩)
    (Cert.ReferenceIdeal.RunV.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  obtain ⟨h0, h2, h3, h4, h5⟩ := Cert.Finite.finite_of_pre _ _ _ _ _ _ _ _ (hpre c)
  exact (Cert.Bridge.value_eq _ _ _ _ _ _ _ _ h0 h2 h3 h4 h5).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunV.run (F := Ideal) m ρ),
  trivial,
  algebraic⟩

end Cert.Proof

end
